-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "inv_3136" .f32 0x39A72F05#32 ((1 / 3136 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x56x56 : Shape := ⟨4, ![32, 512, 56, 56]⟩
abbrev S64x512 : Shape := ⟨2, ![64, 512]⟩
abbrev S64 : Shape := ⟨1, ![64]⟩
abbrev S512x64 : Shape := ⟨2, ![512, 64]⟩
abbrev S512 : Shape := ⟨1, ![512]⟩
abbrev S_ : Shape := ⟨0, ![]⟩

class Facts : Prop where
  bcast_S_S32x512x56x56 : S_.BroadcastsInDim S32x512x56x56 (![] : Fin 0 → Fin S32x512x56x56.rank)
  reducesTo_S32x512x56x56_S_d0_1_2_3 : S32x512x56x56.ReducesTo [0, 1, 2, 3] S_
  h_S_ : 0 < S_.numel
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_arg8 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S64 .f32) (main_arg5 : FVec F S512x64 .f32) (main_arg6 : FVec F S512 .f32) (main_arg7 : FVec F S512 .f32) (main_arg8 : FVec F S512 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S512x64 .f32 := Host.absf main_arg5
  let main_cst_8 : FVec F S_ .f32 := constant S_ .f32 0x7F800000#32
  let main_v25 : FVec F S512x64 .f32 := broadcastInDim S512x64 ![] bcast_S_S512x64 main_cst_8
  let main_v26 : IVec S512x64 1 := cmpf .olt main_v24 main_v25
  let main_c_9 : IVec S_ 1 := constantI S_ 1 1#1
  let main_v27 : IVec S_ 1 := (fun x v => Host.reduce IntOp.andi x v reducesTo_S512x64_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S32x512x56x56 .f32) (main_arg1 : FVec F S64x512 .f32) (main_arg2 : FVec F S64 .f32) (main_arg3 : FVec F S64 .f32) (main_arg4 : FVec F S64 .f32) (main_arg5 : FVec F S512x64 .f32) (main_arg6 : FVec F S512 .f32) (main_arg7 : FVec F S512 .f32) (main_arg8 : FVec F S512 .f32) : IVec S_ 1 :=
  let main_v0 : FVec F S32x512x56x56 .f32 := Host.absf main_arg0
  let main_cst : FVec F S_ .f32 := constant S_ .f32 0x7F800000#32
  let main_v1 : FVec F S32x512x56x56 .f32 := broadcastInDim S32x512x56x56 ![] bcast_S_S32x512x56x56 main_cst
  let main_v2 : IVec S32x512x56x56 1 := cmpf .olt main_v0 main_v1
  let main_c : IVec S_ 1 := constantI S_ 1 1#1
  let main_v3 : IVec S_ 1 := (fun x v => Host.reduce IntOp.andi x v reducesTo_S32x512x56x56_S_d0_1_2_3 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_v13 main_v16
-- ==== Kernel.lean ====
abbrev S32x512x56x56 : Shape := ⟨4, ![32, 512, 56, 56]⟩
abbrev S64x512 : Shape := ⟨2, ![64, 512]⟩
abbrev S64 : Shape := ⟨1, ![64]⟩
abbrev S512x64 : Shape := ⟨2, ![512, 64]⟩
abbrev S512 : Shape := ⟨1, ![512]⟩
abbrev S32x512 : Shape := ⟨2, ![32, 512]⟩
abbrev S8x128x56x56 : Shape := ⟨4, ![8, 128, 56, 56]⟩
abbrev S8x128 : Shape := ⟨2, ![8, 128]⟩
abbrev S8x128x56 : Shape := ⟨3, ![8, 128, 56]⟩
abbrev S32x64 : Shape := ⟨2, ![32, 64]⟩
abbrev S1x64 : Shape := ⟨2, ![1, 64]⟩
abbrev S_ : Shape := ⟨0, ![]⟩
abbrev S32 : Shape := ⟨1, ![32]⟩
abbrev S32x1 : Shape := ⟨2, ![32, 1]⟩
abbrev S1x512 : Shape := ⟨2, ![1, 512]⟩
abbrev S32x128x8x56 : Shape := ⟨4, ![32, 128, 8, 56]⟩
abbrev S32x128 : Shape := ⟨2, ![32, 128]⟩
abbrev S32x128x1x1 : Shape := ⟨4, ![32, 128, 1, 1]⟩

abbrev nBuf : Space → Nat
  | .hbm => 100
  | .vmem => 10
  | .smem => 0
  | _ => 0

abbrev bufTy : (tb : Table) → Fin (tcTables nBuf tb) → BufTy
  | .hbm, ⟨0, _⟩ => ⟨S32x512x56x56, .f32⟩
  | .hbm, ⟨1, _⟩ => ⟨S64x512, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S512x64, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S32x512, .f32⟩
  | .hbm, ⟨10, _⟩ => ⟨S32x64, .f32⟩
  | .hbm, ⟨11, _⟩ => ⟨S1x64, .f32⟩
  | .hbm, ⟨12, _⟩ => ⟨S32x64, .f32⟩
  | .hbm, ⟨13, _⟩ => ⟨S32x64, .f32⟩
  | .hbm, ⟨14, _⟩ => ⟨S_, .f32⟩
  | .hbm, ⟨15, _⟩ => ⟨S32, .f32⟩
  | .hbm, ⟨16, _⟩ => ⟨S32x1, .f32⟩
  | .hbm, ⟨17, _⟩ => ⟨S_, .f32⟩
  | .hbm, ⟨18, _⟩ => ⟨S32x1, .f32⟩
  | .hbm, ⟨19, _⟩ => ⟨S32x1, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S_, .f32⟩
  | .hbm, ⟨24, _⟩ => ⟨S32, .f32⟩
  | .hbm, ⟨25, _⟩ => ⟨S32x1, .f32⟩
  | .hbm, ⟨26, _⟩ => ⟨S_, .f32⟩
  | .hbm, ⟨27, _⟩ => ⟨S32x1, .f32⟩
  | .hbm, ⟨28, _⟩ => ⟨S32x1, .f32⟩
  | .hbm, ⟨29, _⟩ => ⟨S32x64, .f32⟩
  | .hbm, ⟨30, _⟩ => ⟨S32x64, .f32⟩
  | .hbm, ⟨31, _⟩ => ⟨S_, .f32⟩
  | .hbm, ⟨32, _⟩ => ⟨S32x1, .f32⟩
  | .hbm, ⟨33, _⟩ => ⟨S32x1, .f32⟩
  | .hbm, ⟨34, _⟩ => ⟨S32x1, .f32⟩
  | .hbm, ⟨35, _⟩ => ⟨S32x64, .f32⟩
  | .hbm, ⟨36, _⟩ => ⟨S32x64, .f32⟩
  | .hbm, ⟨37, _⟩ => ⟨S1x64, .f32⟩
  | .hbm, ⟨38, _⟩ => ⟨S32x64, .f32⟩
  | .hbm, ⟨39, _⟩ => ⟨S32x64, .f32⟩
  | .hbm, ⟨40, _⟩ => ⟨S1x64, .f32⟩
  | .hbm, ⟨41, _⟩ => ⟨S32x64, .f32⟩
  | .hbm, ⟨42, _⟩ => ⟨S32x64, .f32⟩
  | .hbm, ⟨43, _⟩ => ⟨S_, .f32⟩
  | .hbm, ⟨44, _⟩ => ⟨S32x64, .f32⟩
  | .hbm, ⟨45, _⟩ => ⟨S32x64, .i1⟩
  | .hbm, ⟨46, _⟩ => ⟨S_, .f32⟩
  | .hbm, ⟨47, _⟩ => ⟨S32x64, .f32⟩
  | .hbm, ⟨48, _⟩ => ⟨S32x64, .i1⟩
  | .hbm, ⟨49, _⟩ => ⟨S_, .f32⟩
  | .hbm, ⟨50, _⟩ => ⟨S_, .f32⟩
  | .hbm, ⟨51, _⟩ => ⟨S32x64, .f32⟩
  | .hbm, ⟨52, _⟩ => ⟨S32x64, .f32⟩
  | .hbm, ⟨53, _⟩ => ⟨S32x64, .f32⟩
  | .hbm, ⟨54, _⟩ => ⟨S_, .f32⟩
  | .hbm, ⟨55, _⟩ => ⟨S32x64, .f32⟩
  | .hbm, ⟨56, _⟩ => ⟨S32x64, .f32⟩
  | .hbm, ⟨57, _⟩ => ⟨S32x64, .f32⟩
  | .hbm, ⟨58, _⟩ => ⟨S32x512, .f32⟩
  | .hbm, ⟨59, _⟩ => ⟨S1x512, .f32⟩
  | .hbm, ⟨60, _⟩ => ⟨S32x512, .f32⟩
  | .hbm, ⟨61, _⟩ => ⟨S32x512, .f32⟩
  | .hbm, ⟨62, _⟩ => ⟨S_, .f32⟩
  | .hbm, ⟨63, _⟩ => ⟨S32, .f32⟩
  | .hbm, ⟨64, _⟩ => ⟨S32x1, .f32⟩
  | .hbm, ⟨65, _⟩ => ⟨S_, .f32⟩
  | .hbm, ⟨66, _⟩ => ⟨S32x1, .f32⟩
  | .hbm, ⟨67, _⟩ => ⟨S32x1, .f32⟩
  | .hbm, ⟨68, _⟩ => ⟨S32x512, .f32⟩
  | .hbm, ⟨69, _⟩ => ⟨S32x512, .f32⟩
  | .hbm, ⟨70, _⟩ => ⟨S32x512, .f32⟩
  | .hbm, ⟨71, _⟩ => ⟨S_, .f32⟩
  | .hbm, ⟨72, _⟩ => ⟨S32, .f32⟩
  | .hbm, ⟨73, _⟩ => ⟨S32x1, .f32⟩
  | .hbm, ⟨74, _⟩ => ⟨S_, .f32⟩
  | .hbm, ⟨75, _⟩ => ⟨S32x1, .f32⟩
  | .hbm, ⟨76, _⟩ => ⟨S32x1, .f32⟩
  | .hbm, ⟨77, _⟩ => ⟨S32x512, .f32⟩
  | .hbm, ⟨78, _⟩ => ⟨S32x512, .f32⟩
  | .hbm, ⟨79, _⟩ => ⟨S_, .f32⟩
  | .hbm, ⟨80, _⟩ => ⟨S32x1, .f32⟩
  | .hbm, ⟨81, _⟩ => ⟨S32x1, .f32⟩
  | .hbm, ⟨82, _⟩ => ⟨S32x1, .f32⟩
  | .hbm, ⟨83, _⟩ => ⟨S32x512, .f32⟩
  | .hbm, ⟨84, _⟩ => ⟨S32x512, .f32⟩
  | .hbm, ⟨85, _⟩ => ⟨S1x512, .f32⟩
  | .hbm, ⟨86, _⟩ => ⟨S32x512, .f32⟩
  | .hbm, ⟨87, _⟩ => ⟨S32x512, .f32⟩
  | .hbm, ⟨88, _⟩ => ⟨S1x512, .f32⟩
  | .hbm, ⟨89, _⟩ => ⟨S32x512, .f32⟩
  | .hbm, ⟨90, _⟩ => ⟨S32x512, .f32⟩
  | .hbm, ⟨91, _⟩ => ⟨S32x512, .f32⟩
  | .hbm, ⟨92, _⟩ => ⟨S32x512, .f32⟩
  | .hbm, ⟨93, _⟩ => ⟨S_, .f32⟩
  | .hbm, ⟨94, _⟩ => ⟨S32x512, .f32⟩
  | .hbm, ⟨95, _⟩ => ⟨S32x512, .f32⟩
  | .hbm, ⟨96, _⟩ => ⟨S_, .f32⟩
  | .hbm, ⟨97, _⟩ => ⟨S32x512, .f32⟩
  | .hbm, ⟨98, _⟩ => ⟨S32x512, .f32⟩
  | .hbm, ⟨99, _⟩ => ⟨S32x512x56x56, .f32⟩
  | .local _ .vmem, ⟨0, _⟩ => ⟨S8x128x56x56, .f32⟩
  | .local _ .vmem, ⟨1, _⟩ => ⟨S8x128x56x56, .f32⟩
  | .local _ .vmem, ⟨2, _⟩ => ⟨S8x128, .f32⟩
  | .local _ .vmem, ⟨3, _⟩ => ⟨S8x128, .f32⟩
  | .local _ .vmem, ⟨4, _⟩ => ⟨S32x128x8x56, .f32⟩
  | .local _ .vmem, ⟨5, _⟩ => ⟨S32x128x8x56, .f32⟩
  | .local _ .vmem, ⟨6, _⟩ => ⟨S32x128, .f32⟩
  | .local _ .vmem, ⟨7, _⟩ => ⟨S32x128, .f32⟩
  | .local _ .vmem, ⟨8, _⟩ => ⟨S32x128x8x56, .f32⟩
  | .local _ .vmem, ⟨9, _⟩ => ⟨S32x128x8x56, .f32⟩
  | _, _ => ⟨S32x512x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_call0_cst_1 : Ref sig .tc := ⟨.hbm, 49, rfl⟩
abbrev main_call0_call0_v0 : Ref sig .tc := ⟨.hbm, 50, rfl⟩
abbrev main_call0_call0_v1 : Ref sig .tc := ⟨.hbm, 51, rfl⟩
abbrev main_call0_v4 : Ref sig .tc := ⟨.hbm, 52, rfl⟩
abbrev main_call0_v5 : Ref sig .tc := ⟨.hbm, 53, rfl⟩
abbrev main_call0_cst_2 : Ref sig .tc := ⟨.hbm, 54, rfl⟩
abbrev main_call0_v6 : Ref sig .tc := ⟨.hbm, 55, rfl⟩
abbrev main_call0_v7 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_4 : Ref sig .tc := ⟨.hbm, 62, rfl⟩
abbrev main_v34 : Ref sig .tc := ⟨.hbm, 63, rfl⟩
abbrev main_v35 : Ref sig .tc := ⟨.hbm, 64, rfl⟩
abbrev main_cst_5 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_6 : Ref sig .tc := ⟨.hbm, 71, rfl⟩
abbrev main_v41 : Ref sig .tc := ⟨.hbm, 72, rfl⟩
abbrev main_v42 : Ref sig .tc := ⟨.hbm, 73, rfl⟩
abbrev main_cst_7 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_8 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_9 : Ref sig .tc := ⟨.hbm, 93, rfl⟩
abbrev main_v60 : Ref sig .tc := ⟨.hbm, 94, rfl⟩
abbrev main_v61 : Ref sig .tc := ⟨.hbm, 95, rfl⟩
abbrev main_cst_10 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![4, 7], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage1_0 : Fin 2 → Memref sig .tc .vmem S32x128x8x56 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S32x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S32x128x8x56 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S8x128x56x56_S8x128x56x56_0_0_0_0 : ∀ a, (![0, 0, 0, 0] : Fin 4 → Nat) a + S8x128x56x56.size a ≤ S8x128x56x56.size a
  h_S8x128x56x56 : 0 < S8x128x56x56.numel
  reduces_S8x128x56x56_S8x128x56 : S8x128x56x56.Reduces [3] S8x128x56
  reduces_S8x128x56_S8x128 : S8x128x56.Reduces [2] S8x128
  inb_S8x128_S8x128_0_0 : ∀ a, (![0, 0] : Fin 2 → Nat) a + S8x128.size a ≤ S8x128.size a
  h_S8x128 : 0 < S8x128.numel
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  reducesTo_S32x64_S32_d1 : S32x64.ReducesTo [1] S32
  h_S_ : 0 < S_.numel
  bcast_S32_S32x1_0 : S32.BroadcastsInDim S32x1 (![0] : Fin 1 → Fin S32x1.rank)
  bcast_S_S32x1 : S_.BroadcastsInDim S32x1 (![] : Fin 0 → Fin S32x1.rank)
  bcast_S32x1_S32x64_0_1 : S32x1.BroadcastsInDim S32x64 (![0, 1] : Fin 2 → Fin S32x64.rank)
  bcast_S_S32x64 : S_.BroadcastsInDim S32x64 (![] : Fin 0 → Fin S32x64.rank)
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  reducesTo_S32x512_S32_d1 : S32x512.ReducesTo [1] S32
  bcast_S32x1_S32x512_0_1 : S32x1.BroadcastsInDim S32x512 (![0, 1] : Fin 2 → Fin S32x512.rank)
  bcast_S_S32x512 : S_.BroadcastsInDim S32x512 (![] : Fin 0 → Fin S32x512.rank)
  inb_S32x128_S32x128_0_0 : ∀ a, (![0, 0] : Fin 2 → Nat) a + S32x128.size a ≤ S32x128.size a
  h_S32x128 : 0 < S32x128.numel
  shapeCasts_S32x128_S32x128 : S32x128.ShapeCasts S32x128
  shapeCasts_S32x128_S32x128x1x1 : S32x128.ShapeCasts S32x128x1x1
  inb_S32x128x8x56_S32x128x8x56_0_0_0_0 : ∀ a, (![0, 0, 0, 0] : Fin 4 → Nat) a + S32x128x8x56.size a ≤ S32x128x8x56.size a
  h_S32x128x8x56 : 0 < S32x128x8x56.numel
  shapeCasts_S32x128x1x1_S32x128x1x1 : S32x128x1x1.ShapeCasts S32x128x1x1
  broadcasts_S32x128x1x1_S32x128x8x56 : S32x128x1x1.Broadcasts S32x128x8x56
  dot_S32x512_S64x512_S32x64_1_1_0_0_n_n_wf : DotDims.WF S32x512 S64x512 S32x64 [1] [1] [0] [0] [] []
  dot_S32x64_S512x64_S32x512_1_1_0_0_n_n_wf : DotDims.WF S32x64 S512x64 S32x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x56x56.size a ≤ S32x512x56x56.size a
  hwx0_0 : ∀ i : grid0.Coords, EltTy.bits .f32 = 32 ∨ (Rect.block (s := S32x512x56x56) S8x128x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S32x512.size a
  hwx0_1 : ∀ i : grid0.Coords, EltTy.bits .f32 = 32 ∨ (Rect.block (s := S32x512) S8x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x128x8x56.size a ≤ S32x512x56x56.size a
  hwx1_0 : ∀ i : grid1.Coords, EltTy.bits .f32 = 32 ∨ (Rect.block (s := S32x512x56x56) S32x128x8x56.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x128.size a ≤ S32x512.size a
  hwx1_1 : ∀ i : grid1.Coords, EltTy.bits .f32 = 32 ∨ (Rect.block (s := S32x512) S32x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x128x8x56.size a ≤ S32x512x56x56.size a
  hwx1_2 : ∀ i : grid1.Coords, EltTy.bits .f32 = 32 ∨ (Rect.block (s := S32x512x56x56) S32x128x8x56.size (cc1_transform_2 i) (hinb1_2 i)).WholeWords (EltTy.packing .f32)

variable [Facts₀]

def dot_S32x512_S64x512_S32x64_1_1_0_0_n_n : DotDims S32x512 S64x512 S32x64 where
  lhsContracting := [1]
  rhsContracting := [1]
  lhsNonContracting := [0]
  rhsNonContracting := [0]
  lhsBatch := []
  rhsBatch := []
  wf := dot_S32x512_S64x512_S32x64_1_1_0_0_n_n_wf
def dot_S32x64_S512x64_S32x512_1_1_0_0_n_n : DotDims S32x64 S512x64 S32x512 where
  lhsContracting := [1]
  rhsContracting := [1]
  lhsNonContracting := [0]
  rhsNonContracting := [0]
  lhsBatch := []
  rhsBatch := []
  wf := dot_S32x64_S512x64_S32x512_1_1_0_0_n_n_wf

abbrev win0_0 : Pipeline.Window sig grid0 :=
  Pipeline.Window.ofSpec (Memref.whole main_arg0) S8x128x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S32x128x8x56.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v63) S32x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v64) S32x128x8x56.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x512x56x56 : Shape := ⟨4, ![32, 512, 56, 56]⟩
abbrev S64x512 : Shape := ⟨2, ![64, 512]⟩
abbrev S64 : Shape := ⟨1, ![64]⟩
abbrev S512x64 : Shape := ⟨2, ![512, 64]⟩
abbrev S512 : Shape := ⟨1, ![512]⟩
abbrev S_ : Shape := ⟨0, ![]⟩
abbrev S32x512 : Shape := ⟨2, ![32, 512]⟩
abbrev S32x64 : Shape := ⟨2, ![32, 64]⟩
abbrev S1x64 : Shape := ⟨2, ![1, 64]⟩
abbrev S32 : Shape := ⟨1, ![32]⟩
abbrev S32x1 : Shape := ⟨2, ![32, 1]⟩
abbrev S1x512 : Shape := ⟨2, ![1, 512]⟩
abbrev S32x512x1x1 : Shape := ⟨4, ![32, 512, 1, 1]⟩

abbrev nBuf : Space → Nat
  | .hbm => 106
  | .vmem => 0
  | .smem => 0
  | _ => 0

abbrev bufTy : (tb : Table) → Fin (tcTables nBuf tb) → BufTy
  | .hbm, ⟨0, _⟩ => ⟨S32x512x56x56, .f32⟩
  | .hbm, ⟨1, _⟩ => ⟨S64x512, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S512x64, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S_, .f32⟩
  | .hbm, ⟨10, _⟩ => ⟨S32x512, .f32⟩
  | .hbm, ⟨11, _⟩ => ⟨S_, .f32⟩
  | .hbm, ⟨12, _⟩ => ⟨S32x512, .f32⟩
  | .hbm, ⟨13, _⟩ => ⟨S32x512, .f32⟩
  | .hbm, ⟨14, _⟩ => ⟨S32x64, .f32⟩
  | .hbm, ⟨15, _⟩ => ⟨S1x64, .f32⟩
  | .hbm, ⟨16, _⟩ => ⟨S32x64, .f32⟩
  | .hbm, ⟨17, _⟩ => ⟨S32x64, .f32⟩
  | .hbm, ⟨18, _⟩ => ⟨S_, .f32⟩
  | .hbm, ⟨19, _⟩ => ⟨S32, .f32⟩
  | .hbm, ⟨20, _⟩ => ⟨S32x1, .f32⟩
  | .hbm, ⟨21, _⟩ => ⟨S_, .f32⟩
  | .hbm, ⟨22, _⟩ => ⟨S32x1, .f32⟩
  | .hbm, ⟨23, _⟩ => ⟨S32x1, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S_, .f32⟩
  | .hbm, ⟨28, _⟩ => ⟨S32, .f32⟩
  | .hbm, ⟨29, _⟩ => ⟨S32x1, .f32⟩
  | .hbm, ⟨30, _⟩ => ⟨S_, .f32⟩
  | .hbm, ⟨31, _⟩ => ⟨S32x1, .f32⟩
  | .hbm, ⟨32, _⟩ => ⟨S32x1, .f32⟩
  | .hbm, ⟨33, _⟩ => ⟨S32x64, .f32⟩
  | .hbm, ⟨34, _⟩ => ⟨S32x64, .f32⟩
  | .hbm, ⟨35, _⟩ => ⟨S_, .f32⟩
  | .hbm, ⟨36, _⟩ => ⟨S32x1, .f32⟩
  | .hbm, ⟨37, _⟩ => ⟨S32x1, .f32⟩
  | .hbm, ⟨38, _⟩ => ⟨S32x1, .f32⟩
  | .hbm, ⟨39, _⟩ => ⟨S32x64, .f32⟩
  | .hbm, ⟨40, _⟩ => ⟨S32x64, .f32⟩
  | .hbm, ⟨41, _⟩ => ⟨S1x64, .f32⟩
  | .hbm, ⟨42, _⟩ => ⟨S32x64, .f32⟩
  | .hbm, ⟨43, _⟩ => ⟨S32x64, .f32⟩
  | .hbm, ⟨44, _⟩ => ⟨S1x64, .f32⟩
  | .hbm, ⟨45, _⟩ => ⟨S32x64, .f32⟩
  | .hbm, ⟨46, _⟩ => ⟨S32x64, .f32⟩
  | .hbm, ⟨47, _⟩ => ⟨S_, .f32⟩
  | .hbm, ⟨48, _⟩ => ⟨S32x64, .f32⟩
  | .hbm, ⟨49, _⟩ => ⟨S32x64, .i1⟩
  | .hbm, ⟨50, _⟩ => ⟨S_, .f32⟩
  | .hbm, ⟨51, _⟩ => ⟨S32x64, .f32⟩
  | .hbm, ⟨52, _⟩ => ⟨S32x64, .i1⟩
  | .hbm, ⟨53, _⟩ => ⟨S_, .f32⟩
  | .hbm, ⟨54, _⟩ => ⟨S_, .f32⟩
  | .hbm, ⟨55, _⟩ => ⟨S32x64, .f32⟩
  | .hbm, ⟨56, _⟩ => ⟨S32x64, .f32⟩
  | .hbm, ⟨57, _⟩ => ⟨S32x64, .f32⟩
  | .hbm, ⟨58, _⟩ => ⟨S_, .f32⟩
  | .hbm, ⟨59, _⟩ => ⟨S32x64, .f32⟩
  | .hbm, ⟨60, _⟩ => ⟨S32x64, .f32⟩
  | .hbm, ⟨61, _⟩ => ⟨S32x64, .f32⟩
  | .hbm, ⟨62, _⟩ => ⟨S32x512, .f32⟩
  | .hbm, ⟨63, _⟩ => ⟨S1x512, .f32⟩
  | .hbm, ⟨64, _⟩ => ⟨S32x512, .f32⟩
  | .hbm, ⟨65, _⟩ => ⟨S32x512, .f32⟩
  | .hbm, ⟨66, _⟩ => ⟨S_, .f32⟩
  | .hbm, ⟨67, _⟩ => ⟨S32, .f32⟩
  | .hbm, ⟨68, _⟩ => ⟨S32x1, .f32⟩
  | .hbm, ⟨69, _⟩ => ⟨S_, .f32⟩
  | .hbm, ⟨70, _⟩ => ⟨S32x1, .f32⟩
  | .hbm, ⟨71, _⟩ => ⟨S32x1, .f32⟩
  | .hbm, ⟨72, _⟩ => ⟨S32x512, .f32⟩
  | .hbm, ⟨73, _⟩ => ⟨S32x512, .f32⟩
  | .hbm, ⟨74, _⟩ => ⟨S32x512, .f32⟩
  | .hbm, ⟨75, _⟩ => ⟨S_, .f32⟩
  | .hbm, ⟨76, _⟩ => ⟨S32, .f32⟩
  | .hbm, ⟨77, _⟩ => ⟨S32x1, .f32⟩
  | .hbm, ⟨78, _⟩ => ⟨S_, .f32⟩
  | .hbm, ⟨79, _⟩ => ⟨S32x1, .f32⟩
  | .hbm, ⟨80, _⟩ => ⟨S32x1, .f32⟩
  | .hbm, ⟨81, _⟩ => ⟨S32x512, .f32⟩
  | .hbm, ⟨82, _⟩ => ⟨S32x512, .f32⟩
  | .hbm, ⟨83, _⟩ => ⟨S_, .f32⟩
  | .hbm, ⟨84, _⟩ => ⟨S32x1, .f32⟩
  | .hbm, ⟨85, _⟩ => ⟨S32x1, .f32⟩
  | .hbm, ⟨86, _⟩ => ⟨S32x1, .f32⟩
  | .hbm, ⟨87, _⟩ => ⟨S32x512, .f32⟩
  | .hbm, ⟨88, _⟩ => ⟨S32x512, .f32⟩
  | .hbm, ⟨89, _⟩ => ⟨S1x512, .f32⟩
  | .hbm, ⟨90, _⟩ => ⟨S32x512, .f32⟩
  | .hbm, ⟨91, _⟩ => ⟨S32x512, .f32⟩
  | .hbm, ⟨92, _⟩ => ⟨S1x512, .f32⟩
  | .hbm, ⟨93, _⟩ => ⟨S32x512, .f32⟩
  | .hbm, ⟨94, _⟩ => ⟨S32x512, .f32⟩
  | .hbm, ⟨95, _⟩ => ⟨S32x512, .f32⟩
  | .hbm, ⟨96, _⟩ => ⟨S32x512, .f32⟩
  | .hbm, ⟨97, _⟩ => ⟨S_, .f32⟩
  | .hbm, ⟨98, _⟩ => ⟨S32x512, .f32⟩
  | .hbm, ⟨99, _⟩ => ⟨S32x512, .f32⟩
  | .hbm, ⟨100, _⟩ => ⟨S_, .f32⟩
  | .hbm, ⟨101, _⟩ => ⟨S32x512, .f32⟩
  | .hbm, ⟨102, _⟩ => ⟨S32x512, .f32⟩
  | .hbm, ⟨103, _⟩ => ⟨S32x512x1x1, .f32⟩
  | .hbm, ⟨104, _⟩ => ⟨S32x512x56x56, .f32⟩
  | .hbm, ⟨105, _⟩ => ⟨S32x512x56x56, .f32⟩
  | _, _ => ⟨S32x512x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_call0_cst_1 : Ref sig .tc := ⟨.hbm, 53, rfl⟩
abbrev main_call0_call0_v0 : Ref sig .tc := ⟨.hbm, 54, rfl⟩
abbrev main_call0_call0_v1 : Ref sig .tc := ⟨.hbm, 55, rfl⟩
abbrev main_call0_v4 : Ref sig .tc := ⟨.hbm, 56, rfl⟩
abbrev main_call0_v5 : Ref sig .tc := ⟨.hbm, 57, rfl⟩
abbrev main_call0_cst_2 : Ref sig .tc := ⟨.hbm, 58, rfl⟩
abbrev main_call0_v6 : Ref sig .tc := ⟨.hbm, 59, rfl⟩
abbrev main_call0_v7 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_6 : Ref sig .tc := ⟨.hbm, 66, rfl⟩
abbrev main_v36 : Ref sig .tc := ⟨.hbm, 67, rfl⟩
abbrev main_v37 : Ref sig .tc := ⟨.hbm, 68, rfl⟩
abbrev main_cst_7 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_8 : Ref sig .tc := ⟨.hbm, 75, rfl⟩
abbrev main_v43 : Ref sig .tc := ⟨.hbm, 76, rfl⟩
abbrev main_v44 : Ref sig .tc := ⟨.hbm, 77, rfl⟩
abbrev main_cst_9 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_10 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_11 : Ref sig .tc := ⟨.hbm, 97, rfl⟩
abbrev main_v62 : Ref sig .tc := ⟨.hbm, 98, rfl⟩
abbrev main_v63 : Ref sig .tc := ⟨.hbm, 99, rfl⟩
abbrev main_cst_12 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩

abbrev nD : Nat := 1
abbrev τ : Topo := Topo.v7x

variable {F : FTy → Type} [FloatOps F]

class Facts₀ : Prop where
  reducesTo_S32x512x56x56_S32x512_d2_3 : S32x512x56x56.ReducesTo [2, 3] S32x512
  h_S_ : 0 < S_.numel
  bcast_S_S32x512 : S_.BroadcastsInDim S32x512 (![] : Fin 0 → Fin S32x512.rank)
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  reducesTo_S32x64_S32_d1 : S32x64.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x64_0_1 : S32x1.BroadcastsInDim S32x64 (![0, 1] : Fin 2 → Fin S32x64.rank)
  bcast_S_S32x64 : S_.BroadcastsInDim S32x64 (![] : Fin 0 → Fin S32x64.rank)
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  reducesTo_S32x512_S32_d1 : S32x512.ReducesTo [1] S32
  bcast_S32x1_S32x512_0_1 : S32x1.BroadcastsInDim S32x512 (![0, 1] : Fin 2 → Fin S32x512.rank)
  bcast_S32x512_S32x512x1x1_0_1 : S32x512.BroadcastsInDim S32x512x1x1 (![0, 1] : Fin 2 → Fin S32x512x1x1.rank)
  bcast_S32x512x1x1_S32x512x56x56_0_1_2_3 : S32x512x1x1.BroadcastsInDim S32x512x56x56 (![0, 1, 2, 3] : Fin 4 → Fin S32x512x56x56.rank)
  dot_S32x512_S64x512_S32x64_1_1_0_0_n_n_wf : DotDims.WF S32x512 S64x512 S32x64 [1] [1] [0] [0] [] []
  dot_S32x64_S512x64_S32x512_1_1_0_0_n_n_wf : DotDims.WF S32x64 S512x64 S32x512 [1] [1] [0] [0] [] []

variable [Facts₀]

def dot_S32x512_S64x512_S32x64_1_1_0_0_n_n : DotDims S32x512 S64x512 S32x64 where
  lhsContracting := [1]
  rhsContracting := [1]
  lhsNonContracting := [0]
  rhsNonContracting := [0]
  lhsBatch := []
  rhsBatch := []
  wf := dot_S32x512_S64x512_S32x64_1_1_0_0_n_n_wf
def dot_S32x64_S512x64_S32x512_1_1_0_0_n_n : DotDims S32x64 S512x64 S32x512 where
  lhsContracting := [1]
  rhsContracting := [1]
  lhsNonContracting := [0]
  rhsNonContracting := [0]
  lhsBatch := []
  rhsBatch := []
  wf := dot_S32x64_S512x64_S32x512_1_1_0_0_n_n_wf

class Facts : Prop extends Facts₀ where

variable [Facts]
-- ==== Proof.KernelRun.lean ====
/-
  The idealized kernel's run with its result named. The program is five segments: the pooling region, three stretches
  of host operations (the gate network), and the gating region. The buffer contents at each boundary are a fold from the
  launch memory; at the last boundary the result array holds what the gating region's write-backs leave, and every
  argument array holds its launch contents. Every weakly fair execution terminates in a state that agrees with that
  last boundary on every buffer that outlives the regions, the result array among them.
-/
import proofs.«119825_j20332375179387_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and every argument array as launched. -/
theorem run : θ_run defs (onTc (τ := τ) (main (F := F))) ⟨m, fun _ => 0, ρ⟩ (fun r => ∀ c : Dev nD,
      r.2.mem ((c.tc : Thread nD τ).loc main_v64) = W5 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v64 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

end Cert.KernelIdeal.KRun

end
-- ==== Proof.LibAfterAppend.lean ====
/-
  A line of host operations run in two stretches: the buffer contents after `l₁ ++ l₂` are the contents after `l₂` started
  from the contents after `l₁`. (Each operation rewrites the buffers it writes and leaves the rest, so running a list is a
  left fold, and a left fold over an append is the fold over the second list from the fold over the first.) It lets a
  long straight-line program be read stage by stage, the contents after an earlier stretch carried as one opaque value.
-/
import Idealize.ShloMosaic.Lib.StableHlo.Run

namespace Cert.Lib

open Idealize.ShloMosaic Idealize.ShloMosaic.StableHlo

/-- Running `l₁ ++ l₂` from `V` is running `l₂` from what `l₁` leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.Lib
-- ==== Proof.RefRun.lean ====
/-
  The reference program as a straight line of host operations, read in stretches: the spatial mean (a sum over the
  two spatial axes divided by their extent 3136), the first projection with its normalisation over the 64 channels, the
  ELU (its comparison, the select that guards the exponential, the exponential minus one, the final select), the second
  projection with its normalisation over the 512 channels and the logistic function, and last the gate broadcast over
  the spatial axes and multiplied into the input. Every weakly fair execution of the program terminates with each buffer
  at what these operations, run in order from the launch contents, leave there.
-/
import proofs.«119825_j20332375179387_1_alg».proof.Proof.Gen.ReferenceIdeal
import proofs.«119825_j20332375179387_1_alg».proof.Proof.LibAfterAppend
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The mean over the spatial axes: the sum from zero over axes 2 and 3, divided by 3136. -/
abbrev opsPool : List (HloOp τ sig (Elt F)) :=
  [ StableHlo.nullary main_cst (constant S_ .f32 0x00000000#32),
    StableHlo.binary main_arg0 main_cst main_v0 ((fun x v => Host.reduceAdd x v reducesTo_S32x512x56x56_S32x512_d2_3 h_S_) : (⟨S32x512x56x56, .f32⟩ : BufTy).Contents (Elt F) → (⟨S_, .f32⟩ : BufTy).Contents (Elt F) → (⟨S32x512, .f32⟩ : BufTy).Contents (Elt F)),
    StableHlo.nullary main_cst_0 (constant S_ .f32 0x45440000#32),
    StableHlo.unary main_cst_0 main_v1 (broadcastInDim S32x512 ![] bcast_S_S32x512 : (⟨S_, .f32⟩ : BufTy).Contents (Elt F) → (⟨S32x512, .f32⟩ : BufTy).Contents (Elt F)),
    StableHlo.binary main_v0 main_v1 main_v2 (Host.divf : (⟨S32x512, .f32⟩ : BufTy).Contents (Elt F) → (⟨S32x512, .f32⟩ : BufTy).Contents (Elt F) → (⟨S32x512, .f32⟩ : BufTy).Contents (Elt F)) ]

theorem opsPool_sub : (opsPool : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub ..⟩

/-- The first projection, its bias, and the normalisation over the 64 channels with its scale and shift. -/
abbrev opsMlp1 : List (HloOp τ sig (Elt F)) :=
  [ StableHlo.binary main_v2 main_arg1 main_v3 ((fun l r => Host.dotGeneral dot_S32x512_S64x512_S32x64_1_1_0_0_n_n none l r) : (⟨S32x512, .f32⟩ : BufTy).Contents (Elt F) → (⟨S64x512, .f32⟩ : BufTy).Contents (Elt F) → (⟨S32x64, .f32⟩ : BufTy).Contents (Elt F)),
    StableHlo.unary main_arg2 main_v4 (broadcastInDim S1x64 ![1] bcast_S64_S1x64_1 : (⟨S64, .f32⟩ : BufTy).Contents (Elt F) → (⟨S1x64, .f32⟩ : BufTy).Contents (Elt F)),
    StableHlo.unary main_v4 main_v5 (broadcastInDim S32x64 ![0, 1] bcast_S1x64_S32x64_0_1 : (⟨S1x64, .f32⟩ : BufTy).Contents (Elt F) → (⟨S32x64, .f32⟩ : BufTy).Contents (Elt F)),
    StableHlo.binary main_v3 main_v5 main_v6 (addf : (⟨S32x64, .f32⟩ : BufTy).Contents (Elt F) → (⟨S32x64, .f32⟩ : BufTy).Contents (Elt F) → (⟨S32x64, .f32⟩ : BufTy).Contents (Elt F)),
    StableHlo.nullary main_cst_1 (constant S_ .f32 0x00000000#32),
    StableHlo.binary main_v6 main_cst_1 main_v7 ((fun x v => Host.reduceAdd x v reducesTo_S32x64_S32_d1 h_S_) : (⟨S32x64, .f32⟩ : BufTy).Contents (Elt F) → (⟨S_, .f32⟩ : BufTy).Contents (Elt F) → (⟨S32, .f32⟩ : BufTy).Contents (Elt F)),
    StableHlo.unary main_v7 main_v8 (broadcastInDim S32x1 ![0] bcast_S32_S32x1_0 : (⟨S32, .f32⟩ : BufTy).Contents (Elt F) → (⟨S32x1, .f32⟩ : BufTy).Contents (Elt F)),
    StableHlo.nullary main_cst_2 (constant S_ .f32 0x42800000#32),
    StableHlo.unary main_cst_2 main_v9 (broadcastInDim S32x1 ![] bcast_S_S32x1 : (⟨S_, .f32⟩ : BufTy).Contents (Elt F) → (⟨S32x1, .f32⟩ : BufTy).Contents (Elt F)),
    StableHlo.binary main_v8 main_v9 main_v10 (Host.divf : (⟨S32x1, .f32⟩ : BufTy).Contents (Elt F) → (⟨S32x1, .f32⟩ : BufTy).Contents (Elt F) → (⟨S32x1, .f32⟩ : BufTy).Contents (Elt F)),
    StableHlo.unary main_v10 main_v11 (broadcastInDim S32x64 ![0, 1] bcast_S32x1_S32x64_0_1 : (⟨S32x1, .f32⟩ : BufTy).Contents (Elt F) → (⟨S32x64, .f32⟩ : BufTy).Contents (Elt F)),
    StableHlo.binary main_v6 main_v11 main_v12 (subf : (⟨S32x64, .f32⟩ : BufTy).Contents (Elt F) → (⟨S32x64, .f32⟩ : BufTy).Contents (Elt F) → (⟨S32x64, .f32⟩ : BufTy).Contents (Elt F)),
    StableHlo.binary main_v12 main_v12 main_v13 (mulf : (⟨S32x64, .f32⟩ : BufTy).Contents (Elt F) → (⟨S32x64, .f32⟩ : BufTy).Contents (Elt F) → (⟨S32x64, .f32⟩ : BufTy).Contents (Elt F)),
    StableHlo.nullary main_cst_3 (constant S_ .f32 0x00000000#32),
    StableHlo.binary main_v13 main_cst_3 main_v14 ((fun x v => Host.reduceAdd x v reducesTo_S32x64_S32_d1 h_S_) : (⟨S32x64, .f32⟩ : BufTy).Contents (Elt F) → (⟨S_, .f32⟩ : BufTy).Contents (Elt F) → (⟨S32, .f32⟩ : BufTy).Contents (Elt F)),
    StableHlo.unary main_v14 main_v15 (broadcastInDim S32x1 ![0] bcast_S32_S32x1_0 : (⟨S32, .f32⟩ : BufTy).Contents (Elt F) → (⟨S32x1, .f32⟩ : BufTy).Contents (Elt F)),
    StableHlo.nullary main_cst_4 (constant S_ .f32 0x42800000#32),
    StableHlo.unary main_cst_4 main_v16 (broadcastInDim S32x1 ![] bcast_S_S32x1 : (⟨S_, .f32⟩ : BufTy).Contents (Elt F) → (⟨S32x1, .f32⟩ : BufTy).Contents (Elt F)),
    StableHlo.binary main_v15 main_v16 main_v17 (Host.divf : (⟨S32x1, .f32⟩ : BufTy).Contents (Elt F) → (⟨S32x1, .f32⟩ : BufTy).Contents (Elt F) → (⟨S32x1, .f32⟩ : BufTy).Contents (Elt F)),
    StableHlo.unary main_v10 main_v18 (broadcastInDim S32x64 ![0, 1] bcast_S32x1_S32x64_0_1 : (⟨S32x1, .f32⟩ : BufTy).Contents (Elt F) → (⟨S32x64, .f32⟩ : BufTy).Contents (Elt F)),
    StableHlo.binary main_v6 main_v18 main_v19 (subf : (⟨S32x64, .f32⟩ : BufTy).Contents (Elt F) → (⟨S32x64, .f32⟩ : BufTy).Contents (Elt F) → (⟨S32x64, .f32⟩ : BufTy).Contents (Elt F)),
    StableHlo.nullary main_cst_5 (constant S_ .f32 0x3727C5AC#32),
    StableHlo.unary main_cst_5 main_v20 (broadcastInDim S32x1 ![] bcast_S_S32x1 : (⟨S_, .f32⟩ : BufTy).Contents (Elt F) → (⟨S32x1, .f32⟩ : BufTy).Contents (Elt F)),
    StableHlo.binary main_v17 main_v20 main_v21 (addf : (⟨S32x1, .f32⟩ : BufTy).Contents (Elt F) → (⟨S32x1, .f32⟩ : BufTy).Contents (Elt F) → (⟨S32x1, .f32⟩ : BufTy).Contents (Elt F)),
    StableHlo.unary main_v21 main_v22 (Host.rsqrt : (⟨S32x1, .f32⟩ : BufTy).Contents (Elt F) → (⟨S32x1, .f32⟩ : BufTy).Contents (Elt F)),
    StableHlo.unary main_v22 main_v23 (broadcastInDim S32x64 ![0, 1] bcast_S32x1_S32x64_0_1 : (⟨S32x1, .f32⟩ : BufTy).Contents (Elt F) → (⟨S32x64, .f32⟩ : BufTy).Contents (Elt F)),
    StableHlo.binary main_v19 main_v23 main_v24 (mulf : (⟨S32x64, .f32⟩ : BufTy).Contents (Elt F) → (⟨S32x64, .f32⟩ : BufTy).Contents (Elt F) → (⟨S32x64, .f32⟩ : BufTy).Contents (Elt F)),
    StableHlo.unary main_arg3 main_v25 (broadcastInDim S1x64 ![1] bcast_S64_S1x64_1 : (⟨S64, .f32⟩ : BufTy).Contents (Elt F) → (⟨S1x64, .f32⟩ : BufTy).Contents (Elt F)),
    StableHlo.unary main_v25 main_v26 (broadcastInDim S32x64 ![0, 1] bcast_S1x64_S32x64_0_1 : (⟨S1x64, .f32⟩ : BufTy).Contents (Elt F) → (⟨S32x64, .f32⟩ : BufTy).Contents (Elt F)),
    StableHlo.binary main_v24 main_v26 main_v27 (mulf : (⟨S32x64, .f32⟩ : BufTy).Contents (Elt F) → (⟨S32x64, .f32⟩ : BufTy).Contents (Elt F) → (⟨S32x64, .f32⟩ : BufTy).Contents (Elt F)),
    StableHlo.unary main_arg4 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S32x64 ![0, 1] bcast_S1x64_S32x64_0_1 : (⟨S1x64, .f32⟩ : BufTy).Contents (Elt F) → (⟨S32x64, .f32⟩ : BufTy).Contents (Elt F)),
    StableHlo.binary main_v27 main_v29 main_v30 (addf : (⟨S32x64, .f32⟩ : BufTy).Contents (Elt F) → (⟨S32x64, .f32⟩ : BufTy).Contents (Elt F) → (⟨S32x64, .f32⟩ : BufTy).Contents (Elt F)) ]

theorem opsMlp1_sub : (opsMlp1 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

/-- The ELU: x where x > 0, exp(x') - 1 elsewhere, with x' = 0 where x > 0 so that the exponential is never taken of a large argument. -/
abbrev opsElu : List (HloOp τ sig (Elt F)) :=
  [ StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S32x64, .f32⟩) (broadcastInDim S32x64 ![] bcast_S_S32x64),
    StableHlo.TRef.binary (.of main_v30 : StableHlo.TRef sig ⟨S32x64, .f32⟩) (.of main_call0_v0 : StableHlo.TRef sig ⟨S32x64, .f32⟩) (.of main_call0_v1 : StableHlo.TRef sig ⟨S32x64, .i1⟩) (cmpf .ogt),
    StableHlo.TRef.nullary (.of main_call0_cst_0 : StableHlo.TRef sig ⟨S_, .f32⟩) (constant S_ .f32 0x00000000#32),
    StableHlo.TRef.unary (.of main_call0_cst_0 : StableHlo.TRef sig ⟨S_, .f32⟩) (.of main_call0_v2 : StableHlo.TRef sig ⟨S32x64, .f32⟩) (broadcastInDim S32x64 ![] bcast_S_S32x64),
    StableHlo.TRef.binary (.of main_v30 : StableHlo.TRef sig ⟨S32x64, .f32⟩) (.of main_call0_v2 : StableHlo.TRef sig ⟨S32x64, .f32⟩) (.of main_call0_v3 : StableHlo.TRef sig ⟨S32x64, .i1⟩) (cmpf .ogt),
    StableHlo.TRef.nullary (.of main_call0_cst_1 : StableHlo.TRef sig ⟨S_, .f32⟩) (constant S_ .f32 0x00000000#32),
    StableHlo.TRef.unary (.of main_call0_cst_1 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S32x64, .f32⟩) (broadcastInDim S32x64 ![] bcast_S_S32x64),
    StableHlo.TRef.ternary (.of main_call0_v3 : StableHlo.TRef sig ⟨S32x64, .i1⟩) (.of main_call0_call0_v1 : StableHlo.TRef sig ⟨S32x64, .f32⟩) (.of main_v30 : StableHlo.TRef sig ⟨S32x64, .f32⟩) (.of main_call0_v4 : StableHlo.TRef sig ⟨S32x64, .f32⟩) select,
    StableHlo.TRef.unary (.of main_call0_v4 : StableHlo.TRef sig ⟨S32x64, .f32⟩) (.of main_call0_v5 : StableHlo.TRef sig ⟨S32x64, .f32⟩) Host.expm1,
    StableHlo.TRef.nullary (.of main_call0_cst_2 : StableHlo.TRef sig ⟨S_, .f32⟩) (constant S_ .f32 0x3F800000#32),
    StableHlo.TRef.unary (.of main_call0_cst_2 : StableHlo.TRef sig ⟨S_, .f32⟩) (.of main_call0_v6 : StableHlo.TRef sig ⟨S32x64, .f32⟩) (broadcastInDim S32x64 ![] bcast_S_S32x64),
    StableHlo.TRef.binary (.of main_call0_v6 : StableHlo.TRef sig ⟨S32x64, .f32⟩) (.of main_call0_v5 : StableHlo.TRef sig ⟨S32x64, .f32⟩) (.of main_call0_v7 : StableHlo.TRef sig ⟨S32x64, .f32⟩) mulf,
    StableHlo.TRef.ternary (.of main_call0_v1 : StableHlo.TRef sig ⟨S32x64, .i1⟩) (.of main_v30 : StableHlo.TRef sig ⟨S32x64, .f32⟩) (.of main_call0_v7 : StableHlo.TRef sig ⟨S32x64, .f32⟩) (.of main_v31 : StableHlo.TRef sig ⟨S32x64, .f32⟩) select ]

theorem opsElu_sub : (opsElu : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub ..⟩

/-- The second projection, its bias, and the mean and the centred squares of the normalisation over the 512 channels. -/
abbrev opsMlp2a : List (HloOp τ sig (Elt F)) :=
  [ StableHlo.binary main_v31 main_arg5 main_v32 ((fun l r => Host.dotGeneral dot_S32x64_S512x64_S32x512_1_1_0_0_n_n none l r) : (⟨S32x64, .f32⟩ : BufTy).Contents (Elt F) → (⟨S512x64, .f32⟩ : BufTy).Contents (Elt F) → (⟨S32x512, .f32⟩ : BufTy).Contents (Elt F)),
    StableHlo.unary main_arg6 main_v33 (broadcastInDim S1x512 ![1] bcast_S512_S1x512_1 : (⟨S512, .f32⟩ : BufTy).Contents (Elt F) → (⟨S1x512, .f32⟩ : BufTy).Contents (Elt F)),
    StableHlo.unary main_v33 main_v34 (broadcastInDim S32x512 ![0, 1] bcast_S1x512_S32x512_0_1 : (⟨S1x512, .f32⟩ : BufTy).Contents (Elt F) → (⟨S32x512, .f32⟩ : BufTy).Contents (Elt F)),
    StableHlo.binary main_v32 main_v34 main_v35 (addf : (⟨S32x512, .f32⟩ : BufTy).Contents (Elt F) → (⟨S32x512, .f32⟩ : BufTy).Contents (Elt F) → (⟨S32x512, .f32⟩ : BufTy).Contents (Elt F)),
    StableHlo.nullary main_cst_6 (constant S_ .f32 0x00000000#32),
    StableHlo.binary main_v35 main_cst_6 main_v36 ((fun x v => Host.reduceAdd x v reducesTo_S32x512_S32_d1 h_S_) : (⟨S32x512, .f32⟩ : BufTy).Contents (Elt F) → (⟨S_, .f32⟩ : BufTy).Contents (Elt F) → (⟨S32, .f32⟩ : BufTy).Contents (Elt F)),
    StableHlo.unary main_v36 main_v37 (broadcastInDim S32x1 ![0] bcast_S32_S32x1_0 : (⟨S32, .f32⟩ : BufTy).Contents (Elt F) → (⟨S32x1, .f32⟩ : BufTy).Contents (Elt F)),
    StableHlo.nullary main_cst_7 (constant S_ .f32 0x44000000#32),
    StableHlo.unary main_cst_7 main_v38 (broadcastInDim S32x1 ![] bcast_S_S32x1 : (⟨S_, .f32⟩ : BufTy).Contents (Elt F) → (⟨S32x1, .f32⟩ : BufTy).Contents (Elt F)),
    StableHlo.binary main_v37 main_v38 main_v39 (Host.divf : (⟨S32x1, .f32⟩ : BufTy).Contents (Elt F) → (⟨S32x1, .f32⟩ : BufTy).Contents (Elt F) → (⟨S32x1, .f32⟩ : BufTy).Contents (Elt F)),
    StableHlo.unary main_v39 main_v40 (broadcastInDim S32x512 ![0, 1] bcast_S32x1_S32x512_0_1 : (⟨S32x1, .f32⟩ : BufTy).Contents (Elt F) → (⟨S32x512, .f32⟩ : BufTy).Contents (Elt F)),
    StableHlo.binary main_v35 main_v40 main_v41 (subf : (⟨S32x512, .f32⟩ : BufTy).Contents (Elt F) → (⟨S32x512, .f32⟩ : BufTy).Contents (Elt F) → (⟨S32x512, .f32⟩ : BufTy).Contents (Elt F)),
    StableHlo.binary main_v41 main_v41 main_v42 (mulf : (⟨S32x512, .f32⟩ : BufTy).Contents (Elt F) → (⟨S32x512, .f32⟩ : BufTy).Contents (Elt F) → (⟨S32x512, .f32⟩ : BufTy).Contents (Elt F)),
    StableHlo.nullary main_cst_8 (constant S_ .f32 0x00000000#32),
    StableHlo.binary main_v42 main_cst_8 main_v43 ((fun x v => Host.reduceAdd x v reducesTo_S32x512_S32_d1 h_S_) : (⟨S32x512, .f32⟩ : BufTy).Contents (Elt F) → (⟨S_, .f32⟩ : BufTy).Contents (Elt F) → (⟨S32, .f32⟩ : BufTy).Contents (Elt F)),
    StableHlo.unary main_v43 main_v44 (broadcastInDim S32x1 ![0] bcast_S32_S32x1_0 : (⟨S32, .f32⟩ : BufTy).Contents (Elt F) → (⟨S32x1, .f32⟩ : BufTy).Contents (Elt F)),
    StableHlo.nullary main_cst_9 (constant S_ .f32 0x44000000#32),
    StableHlo.unary main_cst_9 main_v45 (broadcastInDim S32x1 ![] bcast_S_S32x1 : (⟨S_, .f32⟩ : BufTy).Contents (Elt F) → (⟨S32x1, .f32⟩ : BufTy).Contents (Elt F)),
    StableHlo.binary main_v44 main_v45 main_v46 (Host.divf : (⟨S32x1, .f32⟩ : BufTy).Contents (Elt F) → (⟨S32x1, .f32⟩ : BufTy).Contents (Elt F) → (⟨S32x1, .f32⟩ : BufTy).Contents (Elt F)),
    StableHlo.unary main_v39 main_v47 (broadcastInDim S32x512 ![0, 1] bcast_S32x1_S32x512_0_1 : (⟨S32x1, .f32⟩ : BufTy).Contents (Elt F) → (⟨S32x512, .f32⟩ : BufTy).Contents (Elt F)),
    StableHlo.binary main_v35 main_v47 main_v48 (subf : (⟨S32x512, .f32⟩ : BufTy).Contents (Elt F) → (⟨S32x512, .f32⟩ : BufTy).Contents (Elt F) → (⟨S32x512, .f32⟩ : BufTy).Contents (Elt F)) ]

theorem opsMlp2a_sub : (opsMlp2a : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub ..⟩

/-- The rest of that normalisation (the variance plus epsilon, its inverse square root, the scale and shift) and the logistic function 1 / (1 + exp(-g)). -/
abbrev opsMlp2b : List (HloOp τ sig (Elt F)) :=
  [ StableHlo.nullary main_cst_10 (constant S_ .f32 0x3727C5AC#32),
    StableHlo.unary main_cst_10 main_v49 (broadcastInDim S32x1 ![] bcast_S_S32x1 : (⟨S_, .f32⟩ : BufTy).Contents (Elt F) → (⟨S32x1, .f32⟩ : BufTy).Contents (Elt F)),
    StableHlo.binary main_v46 main_v49 main_v50 (addf : (⟨S32x1, .f32⟩ : BufTy).Contents (Elt F) → (⟨S32x1, .f32⟩ : BufTy).Contents (Elt F) → (⟨S32x1, .f32⟩ : BufTy).Contents (Elt F)),
    StableHlo.unary main_v50 main_v51 (Host.rsqrt : (⟨S32x1, .f32⟩ : BufTy).Contents (Elt F) → (⟨S32x1, .f32⟩ : BufTy).Contents (Elt F)),
    StableHlo.unary main_v51 main_v52 (broadcastInDim S32x512 ![0, 1] bcast_S32x1_S32x512_0_1 : (⟨S32x1, .f32⟩ : BufTy).Contents (Elt F) → (⟨S32x512, .f32⟩ : BufTy).Contents (Elt F)),
    StableHlo.binary main_v48 main_v52 main_v53 (mulf : (⟨S32x512, .f32⟩ : BufTy).Contents (Elt F) → (⟨S32x512, .f32⟩ : BufTy).Contents (Elt F) → (⟨S32x512, .f32⟩ : BufTy).Contents (Elt F)),
    StableHlo.unary main_arg7 main_v54 (broadcastInDim S1x512 ![1] bcast_S512_S1x512_1 : (⟨S512, .f32⟩ : BufTy).Contents (Elt F) → (⟨S1x512, .f32⟩ : BufTy).Contents (Elt F)),
    StableHlo.unary main_v54 main_v55 (broadcastInDim S32x512 ![0, 1] bcast_S1x512_S32x512_0_1 : (⟨S1x512, .f32⟩ : BufTy).Contents (Elt F) → (⟨S32x512, .f32⟩ : BufTy).Contents (Elt F)),
    StableHlo.binary main_v53 main_v55 main_v56 (mulf : (⟨S32x512, .f32⟩ : BufTy).Contents (Elt F) → (⟨S32x512, .f32⟩ : BufTy).Contents (Elt F) → (⟨S32x512, .f32⟩ : BufTy).Contents (Elt F)),
    StableHlo.unary main_arg8 main_v57 (broadcastInDim S1x512 ![1] bcast_S512_S1x512_1 : (⟨S512, .f32⟩ : BufTy).Contents (Elt F) → (⟨S1x512, .f32⟩ : BufTy).Contents (Elt F)),
    StableHlo.unary main_v57 main_v58 (broadcastInDim S32x512 ![0, 1] bcast_S1x512_S32x512_0_1 : (⟨S1x512, .f32⟩ : BufTy).Contents (Elt F) → (⟨S32x512, .f32⟩ : BufTy).Contents (Elt F)),
    StableHlo.binary main_v56 main_v58 main_v59 (addf : (⟨S32x512, .f32⟩ : BufTy).Contents (Elt F) → (⟨S32x512, .f32⟩ : BufTy).Contents (Elt F) → (⟨S32x512, .f32⟩ : BufTy).Contents (Elt F)),
    StableHlo.unary main_v59 main_v60 (Host.negf : (⟨S32x512, .f32⟩ : BufTy).Contents (Elt F) → (⟨S32x512, .f32⟩ : BufTy).Contents (Elt F)),
    StableHlo.unary main_v60 main_v61 (Host.exp : (⟨S32x512, .f32⟩ : BufTy).Contents (Elt F) → (⟨S32x512, .f32⟩ : BufTy).Contents (Elt F)),
    StableHlo.nullary main_cst_11 (constant S_ .f32 0x3F800000#32),
    StableHlo.unary main_cst_11 main_v62 (broadcastInDim S32x512 ![] bcast_S_S32x512 : (⟨S_, .f32⟩ : BufTy).Contents (Elt F) → (⟨S32x512, .f32⟩ : BufTy).Contents (Elt F)),
    StableHlo.binary main_v62 main_v61 main_v63 (addf : (⟨S32x512, .f32⟩ : BufTy).Contents (Elt F) → (⟨S32x512, .f32⟩ : BufTy).Contents (Elt F) → (⟨S32x512, .f32⟩ : BufTy).Contents (Elt F)),
    StableHlo.nullary main_cst_12 (constant S_ .f32 0x3F800000#32),
    StableHlo.unary main_cst_12 main_v64 (broadcastInDim S32x512 ![] bcast_S_S32x512 : (⟨S_, .f32⟩ : BufTy).Contents (Elt F) → (⟨S32x512, .f32⟩ : BufTy).Contents (Elt F)),
    StableHlo.binary main_v64 main_v63 main_v65 (Host.divf : (⟨S32x512, .f32⟩ : BufTy).Contents (Elt F) → (⟨S32x512, .f32⟩ : BufTy).Contents (Elt F) → (⟨S32x512, .f32⟩ : BufTy).Contents (Elt F)) ]

theorem opsMlp2b_sub : (opsMlp2b : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩

/-- The gate broadcast over the two spatial axes and multiplied into the input. -/
abbrev opsTail : List (HloOp τ sig (Elt F)) :=
  [ StableHlo.unary main_v65 main_v66 (broadcastInDim S32x512x1x1 ![0, 1] bcast_S32x512_S32x512x1x1_0_1 : (⟨S32x512, .f32⟩ : BufTy).Contents (Elt F) → (⟨S32x512x1x1, .f32⟩ : BufTy).Contents (Elt F)),
    StableHlo.unary main_v66 main_v67 (broadcastInDim S32x512x56x56 ![0, 1, 2, 3] bcast_S32x512x1x1_S32x512x56x56_0_1_2_3 : (⟨S32x512x1x1, .f32⟩ : BufTy).Contents (Elt F) → (⟨S32x512x56x56, .f32⟩ : BufTy).Contents (Elt F)),
    StableHlo.binary main_arg0 main_v67 main_v68 (mulf : (⟨S32x512x56x56, .f32⟩ : BufTy).Contents (Elt F) → (⟨S32x512x56x56, .f32⟩ : BufTy).Contents (Elt F) → (⟨S32x512x56x56, .f32⟩ : BufTy).Contents (Elt F)) ]

theorem opsTail_sub : (opsTail : List (HloOp τ sig (Elt F))).Forall fun op => op.bufs ⊆ StableHlo.tcRefs τ sig :=
  ⟨StableHlo.unary_bufs_sub .., StableHlo.unary_bufs_sub .., StableHlo.binary_bufs_sub ..⟩

/-- The whole program: the five stretches in order. -/
abbrev ops : List (HloOp τ sig (Elt F)) := opsPool ++ (opsMlp1 ++ (opsElu ++ (opsMlp2a ++ (opsMlp2b ++ opsTail))))

/-- The first window of the program is its first four stretches in order (the ELU's definition and its two selects unfolded at the call). -/
theorem main_part0_chain (c : Dev nD) : main_part0 (F := F) c = (Pipeline.chainK
    [StableHlo.seq opsPool, StableHlo.seq opsMlp1, StableHlo.seq opsElu] (StableHlo.seq opsMlp2a) : Prog (TpuEff nD τ sig (Elt F) (Pipeline.Sig Λ₀ (Fin 0) fun p => (pcfgs (F := F) p).Adm) .tc) PUnit) := by
  chain_rfl

/-- The second window is the last two stretches. -/
theorem main_part1_chain (c : Dev nD) : main_part1 (F := F) c = (Pipeline.chain
    [StableHlo.seq opsMlp2b, StableHlo.seq opsTail] : Prog (TpuEff nD τ sig (Elt F) (Pipeline.Sig Λ₀ (Fin 0) fun p => (pcfgs (F := F) p).Adm) .tc) PUnit) := by
  chain_rfl

/-- The program is that straight line: the two windows one after the other, and stretches run one after the other are their concatenation run as one. -/
theorem main_eq (c : Dev nD) : main (F := F) c = StableHlo.seq ops := by
  show (main_part0 (F := F) c >>= fun _ => main_part1 (F := F) c)
    = StableHlo.seq (opsPool ++ (opsMlp1 ++ (opsElu ++ (opsMlp2a ++ (opsMlp2b ++ opsTail)))))
  rw [StableHlo.seq_append, StableHlo.seq_append, StableHlo.seq_append, StableHlo.seq_append, StableHlo.seq_append]
  rewrite [main_part1_chain, main_part0_chain, Pipeline.chainK_bind_chain]
  simp only [List.cons_append, List.nil_append, Pipeline.chain_cons, Pipeline.chain_nil, bind_pure_unit]

theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} {l₁ l₂ : List α} (h₁ : l₁.Forall p) (h₂ : l₂.Forall p) : (l₁ ++ l₂).Forall p :=
  List.forall_iff_forall_mem.mpr fun a ha => (List.mem_append.mp ha).elim
    (List.forall_iff_forall_mem.mp h₁ a) (List.forall_iff_forall_mem.mp h₂ a)

theorem ops_sub : (ops : List (HloOp τ sig (Elt F))).Forall fun op => op.bufs ⊆ StableHlo.tcRefs τ sig :=
  forall_append opsPool_sub (forall_append opsMlp1_sub (forall_append opsElu_sub (forall_append opsMlp2a_sub (forall_append opsMlp2b_sub opsTail_sub))))

/-- From any memory with zero counters every weakly fair execution of the program terminates, and every buffer ends at
    what the operations, run in order from the launch contents, leave there. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq scopedRefs_eq scopedSems_eq defs main (fun _ => ops) main_eq (fun _ => ops_sub) m ρ

end Cert.ReferenceIdeal.RefRun

end
-- ==== Proof.RefArgs.lean ====
/-
  The reference's whole line of host operations, split into its stretches, and the arguments through it: no operation
  writes an argument array, so each argument's buffer ends with its launch contents.
-/
import proofs.«119825_j20332375179387_1_alg».proof.Proof.RefRun

set_option maxRecDepth 16384

noncomputable section

namespace Cert.ReferenceIdeal.RefArgs

open Cert.ReferenceIdeal Cert.ReferenceIdeal.Gen Cert.ReferenceIdeal.RefRun
open Idealize.ShloMosaic Idealize.ShloMosaic.TcCoe Idealize.ShloMosaic.StableHlo

variable {F : FTy → Type} [FloatOps F]
variable (V' : Valuation τ sig (Elt F))

/-- Running the whole line is running its stretches one after the other. -/
theorem after_ops : after ops V' = after opsTail (after opsMlp2b (after opsMlp2a (after opsElu (after opsMlp1 (after opsPool V'))))) := by
  show after (opsPool ++ (opsMlp1 ++ (opsElu ++ (opsMlp2a ++ (opsMlp2b ++ opsTail))))) V' = _
  rw [Cert.Lib.after_append, Cert.Lib.after_append, Cert.Lib.after_append, Cert.Lib.after_append, Cert.Lib.after_append]

set_option maxHeartbeats 16000000 in
/-- Every argument array is as launched after the whole line. -/
theorem kept :
    after ops V' (Proc.devRef .tc main_arg0) = V' (Proc.devRef .tc main_arg0)
      ∧ after ops V' (Proc.devRef .tc main_arg1) = V' (Proc.devRef .tc main_arg1)
      ∧ after ops V' (Proc.devRef .tc main_arg2) = V' (Proc.devRef .tc main_arg2)
      ∧ after ops V' (Proc.devRef .tc main_arg3) = V' (Proc.devRef .tc main_arg3)
      ∧ after ops V' (Proc.devRef .tc main_arg4) = V' (Proc.devRef .tc main_arg4)
      ∧ after ops V' (Proc.devRef .tc main_arg5) = V' (Proc.devRef .tc main_arg5)
      ∧ after ops V' (Proc.devRef .tc main_arg6) = V' (Proc.devRef .tc main_arg6)
      ∧ after ops V' (Proc.devRef .tc main_arg7) = V' (Proc.devRef .tc main_arg7)
      ∧ after ops V' (Proc.devRef .tc main_arg8) = V' (Proc.devRef .tc main_arg8) := by
  rw [after_ops]
  refine ⟨?_, ?_, ?_, ?_, ?_, ?_, ?_, ?_, ?_⟩ <;> after_results_simp

end Cert.ReferenceIdeal.RefArgs

end
-- ==== Proof.GateValue.lean ====
/-
  What the gating region leaves in its output array. The grid has a point for every block of 128 channels and 8 rows;
  at a point the body multiplies the block of the input (all 32 samples, 128 channels, 8 rows, all 56 columns) by the
  matching 32 × 128 block of the gate, broadcast over rows and columns. The output's blocks tile its array, the input's
  block sits at the same place as the output's, and the gate's block at the same samples and channels: so the array ends
  holding, at every index, the input there times the gate at the index's sample and channel.
-/
import proofs.«119825_j20332375179387_1_alg».proof.Proof.Gen.KernelIdeal.Frame
import Idealize.ShloMosaic.Lib.Pipeline.Value
import Idealize.ShloMosaic.Lib.ValueIdx

set_option maxRecDepth 16384

noncomputable section

namespace Cert.KernelIdeal.GateValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F] [Named F]

/-- The gated array: the input at an index times the gate at that index's sample and channel. -/
def gated (x : S32x512x56x56.Idx → F .f32) (g : S32x512.Idx → F .f32) : S32x512x56x56.Idx → F .f32 :=
  fun i => FloatOps.mulf (x i) (g (ix2 (i 0) (i 1)))

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The body's product at an index of the block: the input block there times the gate block at the index's first two
    coordinates (the gate block is given two unit axes and broadcast over rows and columns). -/
theorem gate_pay (v0 : Vec F S32x128 .f32) (v3 : Vec F S32x128x8x56 .f32) (j : S32x128x8x56.Idx) :
    k1_pay1 v0 v3 j = FloatOps.mulf (v3 j) (v0 (ix2 (j 0) (j 1))) := by
  obtain ⟨a, b, h, w, rfl⟩ : ∃ (a : Fin 32) (b : Fin 128) (h : Fin 8) (w : Fin 56), j = ix4 a b h w :=
    ⟨j 0, j 1, j 2, j 3, eq_ix4 j⟩
  show FloatOps.mulf (v3 (ix4 a b h w)) (broadcastTo S32x128x8x56 (shapeCast S32x128x1x1 (shapeCast S32x128x1x1
    (shapeCast S32x128 v0 shapeCasts_S32x128_S32x128) shapeCasts_S32x128_S32x128x1x1) shapeCasts_S32x128x1x1_S32x128x1x1)
    broadcasts_S32x128x1x1_S32x128x8x56 (ix4 a b h w)) = _
  congr 1
  rw [shapeCast_self, shapeCast_self]
  rw [broadcastTo_apply _ _ _ (ix4 a b (0 : Fin 1) (0 : Fin 1)) (fun d => by
    match d with | ⟨0, _⟩ => rfl | ⟨1, _⟩ => rfl | ⟨2, _⟩ => rfl | ⟨3, _⟩ => rfl)]
  exact shapeCast_apply _ _ _ (ix2 a b) (by
    rw [Shape.rowMajor_val_two, Shape.rowMajor_val_four]; simp)

section Region
variable (V : (c : Dev nD) → (b : Ref sig .tc) → Buf (Elt F) ((c : Thread nD τ).loc b))

/-- The three windows' block positions over the grid: the input's block where the output's is, the gate's at the
    output's first two positions; the output's first and last positions are 0, its channel position at most 3, its row
    position at most 6. -/
theorem idx_facts : ∀ t : Fin cfg1.N,
    win1_0.index t (0 : Fin 4) = win1_2.index t (0 : Fin 4) ∧ win1_0.index t (1 : Fin 4) = win1_2.index t (1 : Fin 4)
    ∧ win1_0.index t (2 : Fin 4) = win1_2.index t (2 : Fin 4) ∧ win1_0.index t (3 : Fin 4) = win1_2.index t (3 : Fin 4)
    ∧ win1_1.index t (0 : Fin 2) = win1_2.index t (0 : Fin 4) ∧ win1_1.index t (1 : Fin 2) = win1_2.index t (1 : Fin 4)
    ∧ win1_2.index t (0 : Fin 4) = 0 ∧ win1_2.index t (1 : Fin 4) ≤ 3 ∧ win1_2.index t (2 : Fin 4) ≤ 6
    ∧ win1_2.index t (3 : Fin 4) = 0 :=
  (by decide +kernel : ∀ t : Fin grid1.N, _)

/-- Every block of channels and rows is some point's. -/
theorem idx_onto : ∀ (q1 : Fin 4) (q2 : Fin 7), ∃ t : Fin cfg1.N, win1_2.index t = ![0, q1.val, q2.val, 0] :=
  (by decide +kernel : ∀ (q1 : Fin 4) (q2 : Fin 7), ∃ t : Fin grid1.N, win1_2.index t = ![0, q1.val, q2.val, 0])

/-- What a point writes back is its block of the gated array. -/
theorem flushed_eq (c : Dev nD) (t : Fin cfg1.N) :
    (dat1 V c).flushed 2 t = ((cfg1.win 2).blk t).view.read (Elt F) (gated (V c main_arg0) (V c main_v63)) := by
  show (cfg1.win 2).cut (grid1.coords t) ((dat1 V c).after 2 t) = _
  rw [after1_2]
  unfold out1_2
  rw [View.canon_unit_zero hz4]
  simp only [View.ld_unit_zero (S := S32x128x8x56) hz4, View.ld_unit_zero (S := S32x128) hz2]
  obtain ⟨e0, e1, e2, e3, e4, e5, e6, e7, e8, e9⟩ := idx_facts t
  funext j
  refine (gate_pay _ _ j).trans ?_
  show FloatOps.mulf (V c main_arg0 (((cfg1.win 0).blk t).view.emb j)) (V c main_v63 (((cfg1.win 1).blk t).view.emb (ix2 (j 0) (j 1))))
    = FloatOps.mulf (V c main_arg0 (((cfg1.win 2).blk t).view.emb j))
        (V c main_v63 (ix2 ((((cfg1.win 2).blk t).view.emb j) 0) ((((cfg1.win 2).blk t).view.emb j) 1)))
  have h0 : ((cfg1.win 0).blk t).view.emb j = ((cfg1.win 2).blk t).view.emb j := by
    funext a; apply Fin.ext
    match a with
    | ⟨0, _⟩ => show win1_0.index t (0 : Fin 4) * 32 + 1 * (j 0).val = win1_2.index t (0 : Fin 4) * 32 + 1 * (j 0).val; omega
    | ⟨1, _⟩ => show win1_0.index t (1 : Fin 4) * 128 + 1 * (j 1).val = win1_2.index t (1 : Fin 4) * 128 + 1 * (j 1).val; omega
    | ⟨2, _⟩ => show win1_0.index t (2 : Fin 4) * 8 + 1 * (j 2).val = win1_2.index t (2 : Fin 4) * 8 + 1 * (j 2).val; omega
    | ⟨3, _⟩ => show win1_0.index t (3 : Fin 4) * 56 + 1 * (j 3).val = win1_2.index t (3 : Fin 4) * 56 + 1 * (j 3).val; omega
  have h1 : ((cfg1.win 1).blk t).view.emb (ix2 (j 0) (j 1))
      = ix2 ((((cfg1.win 2).blk t).view.emb j) 0) ((((cfg1.win 2).blk t).view.emb j) 1) := by
    funext a; apply Fin.ext
    match a with
    | ⟨0, _⟩ => show win1_1.index t (0 : Fin 2) * 32 + 1 * (j 0).val = win1_2.index t (0 : Fin 4) * 32 + 1 * (j 0).val; omega
    | ⟨1, _⟩ => show win1_1.index t (1 : Fin 2) * 128 + 1 * (j 1).val = win1_2.index t (1 : Fin 4) * 128 + 1 * (j 1).val; omega
  rw [h0, h1]
  rfl

/-- An index of the array is in a point's block iff each coordinate is in the block's range on its axis. -/
theorem mem_blk (t : Fin cfg1.N) (i : S32x512x56x56.Idx) :
    i ∈ ((cfg1.win 2).blk t).view.set ↔ ∀ a : Fin 4, win1_2.index t a * S32x128x8x56.size a ≤ (i a).val
      ∧ (i a).val < win1_2.index t a * S32x128x8x56.size a + S32x128x8x56.size a := by
  show i ∈ ((View.whole main_v64).slice (win1_2.rect t)).set ↔ _
  rw [View.set_slice_whole, Rect.mem_set_unit]
  exact Iff.rfl

/-- Every index of the array is in some point's block: the point of its block of channels and its block of rows. -/
theorem cover (i : S32x512x56x56.Idx) :
    ∃ t : Fin cfg1.N, (cfg1.win 2).flush t = true ∧ i ∈ ((cfg1.win 2).blk t).view.set := by
  have hi0 : (i 0).val < 32 := (i 0).isLt
  have hi1 : (i 1).val < 512 := (i 1).isLt
  have hi2 : (i 2).val < 56 := (i 2).isLt
  have hi3 : (i 3).val < 56 := (i 3).isLt
  obtain ⟨t, ht⟩ := idx_onto ⟨(i 1).val / 128, by omega⟩ ⟨(i 2).val / 8, by omega⟩
  have q0 : win1_2.index t (0 : Fin 4) = 0 := congrFun ht 0
  have q1 : win1_2.index t (1 : Fin 4) = (i 1).val / 128 := congrFun ht 1
  have q2 : win1_2.index t (2 : Fin 4) = (i 2).val / 8 := congrFun ht 2
  have q3 : win1_2.index t (3 : Fin 4) = 0 := congrFun ht 3
  refine ⟨t, flush1_2 t, ?_⟩
  rw [mem_blk]
  intro a
  match a with
  | ⟨0, _⟩ => show win1_2.index t (0 : Fin 4) * 32 ≤ (i 0).val ∧ (i 0).val < win1_2.index t (0 : Fin 4) * 32 + 32; omega
  | ⟨1, _⟩ => show win1_2.index t (1 : Fin 4) * 128 ≤ (i 1).val ∧ (i 1).val < win1_2.index t (1 : Fin 4) * 128 + 128; omega
  | ⟨2, _⟩ => show win1_2.index t (2 : Fin 4) * 8 ≤ (i 2).val ∧ (i 2).val < win1_2.index t (2 : Fin 4) * 8 + 8; omega
  | ⟨3, _⟩ => show win1_2.index t (3 : Fin 4) * 56 ≤ (i 3).val ∧ (i 3).val < win1_2.index t (3 : Fin 4) * 56 + 56; omega

/-- The output array after the region: the input, as the region found it, gated by the gate array as the region found it. -/
theorem final (c : Dev nD) : (dat1 V c).arrAt 2 cfg1.N = gated (V c main_arg0) (V c main_v63) :=
  (dat1 V c).arrAt_eq_of_cover 2 (gated (V c main_arg0) (V c main_v63)) (fun t _ => flushed_eq V c t) (cover)

end Region

end Cert.KernelIdeal.GateValue

end
-- ==== Proof.PoolSum.lean ====
/-
  The spatial mean, both ways. For an array x of shape [n, c, 56, 56] and a sample a and channel b write
  S(a, b) = Σ_h Σ_w x[a, b, h, w], a double sum over the 56 rows and 56 columns.
  * Two lane reductions, the first over the columns and the second over the rows, leave S(a, b): a sum over one axis
    reads as the sum over that axis's coordinate of the operand at the index with the coordinate put back.
  * A host reduction over the two spatial axes at once leaves its initial value plus the sum over all indices whose
    sample and channel are (a, b); those indices are exactly the (a, b, h, w), one for each pair (h, w), so that sum is
    S(a, b) again.
  * The reference divides by the float 3136.0, which is the real number 3136 exactly, and a quotient by a nonzero real
    y is the product with 1 / y on every extended real (also at the infinities): so the reference's mean is
    S(a, b) · (1 / 3136), which is what the kernel computes with its reciprocal read as 1 / 3136.
-/
import Idealize.ShloMosaic.PureOps.Ideal
import Idealize.ShloMosaic.PureOps.Ideal.Laws
import Idealize.ShloMosaic.Lib.ValueIdx

noncomputable section

namespace Cert.PoolSum

open Idealize.ShloMosaic Idealize.ShloMosaic.ValueIdx
open scoped BigOperators

/-- The sum of one sample-and-channel's 56 × 56 entries. -/
def spatialSum {n0 n1 : Nat} (x : (⟨4, ![n0, n1, 56, 56]⟩ : Shape).Idx → EReal) (a : Fin n0) (b : Fin n1) : EReal :=
  ∑ h : Fin 56, ∑ w : Fin 56, x (ix4 a b h w)

/-- The lane reduction over the columns and then over the rows of an [8, 128, 56, 56] block, read at (p, q), is the
    double sum of the block's entries at (p, q, ·, ·). -/
theorem lane_sums (v0 : FVec Ideal ⟨4, ![8, 128, 56, 56]⟩ .f32)
    (h3 : Shape.Reduces ⟨4, ![8, 128, 56, 56]⟩ [3] ⟨3, ![8, 128, 56]⟩) (h2 : Shape.Reduces ⟨3, ![8, 128, 56]⟩ [2] ⟨2, ![8, 128]⟩)
    (hφ : FKind.Formats .f32) (hacc3 hacc2 : (0x00000000#32 : BitVec 32) = FKind.add.neutral .f32 hφ) (p : Fin 8) (q : Fin 128) :
    multiReduction .add [2] ⟨2, ![8, 128]⟩ (multiReduction .add [3] ⟨3, ![8, 128, 56]⟩ v0 0x00000000#32 h3 hφ hacc3)
        0x00000000#32 h2 hφ hacc2 (ix2 p q)
      = spatialSum v0 p q := by
  refine (Ideal.multiReduction_add_single _ _ h2 hφ hacc2 (ix2 p q)).trans ?_
  refine Finset.sum_congr rfl fun h _ => ?_
  refine (Ideal.multiReduction_add_single v0 _ h3 hφ hacc3 _).trans ?_
  refine Finset.sum_congr rfl fun w _ => congrArg v0 ?_
  funext d; apply Fin.ext
  match d with
  | ⟨0, _⟩ => rfl
  | ⟨1, _⟩ => rfl
  | ⟨2, _⟩ => rfl
  | ⟨3, _⟩ => rfl

/-- The host's sum over the two spatial axes of a [32, 512, 56, 56] array, read at (n, c): the initial value plus the
    double sum of the entries at (n, c, ·, ·). The indices that reduce to (n, c) are the (n, c, h, w), one for each (h, w). -/
theorem hostSum_spatial (h : (⟨4, ![32, 512, 56, 56]⟩ : Shape).ReducesTo [2, 3] ⟨2, ![32, 512]⟩)
    (x : (⟨4, ![32, 512, 56, 56]⟩ : Shape).Idx → EReal) (init : EReal) (n : Fin 32) (c : Fin 512) :
    Ideal.hostReduceAdd h x init (ix2 n c) = init + spatialSum x n c := by
  unfold Ideal.hostReduceAdd spatialSum
  congr 1
  rw [← Fintype.sum_prod_type']
  symm
  refine Finset.sum_bij (fun (p : Fin 56 × Fin 56) _ => ix4 n c p.1 p.2) ?_ ?_ ?_ ?_
  · intro p _
    refine Finset.mem_filter.mpr ⟨Finset.mem_univ _, ?_⟩
    funext b; apply Fin.ext
    match b with
    | ⟨0, _⟩ => rfl
    | ⟨1, _⟩ => rfl
  · intro p _ q _ e
    exact Prod.ext (congrFun e 2) (congrFun e 3)
  · intro i hi
    have hd : h.drop i = ix2 n c := (Finset.mem_filter.mp hi).2
    refine ⟨(i 2, i 3), Finset.mem_univ _, ?_⟩
    have e0 : i 0 = n := Fin.ext (congrArg (fun j => (j 0).val) hd)
    have e1 : i 1 = c := Fin.ext (congrArg (fun j => (j 1).val) hd)
    rw [← e0, ← e1]
    exact (eq_ix4 i).symm
  · intro p _; rfl

/-- The float zero is the real zero. -/
theorem ofBits_zero : Ideal.ofBits .f32 0x00000000#32 = 0 := by
  simp [Ideal.ofBits, Ideal.ieee]

/-- The float 3136.0 (the number of spatial positions, 56 · 56) is the real 3136. -/
theorem ofBits_3136 : Ideal.ofBits .f32 0x45440000#32 = ((3136 : ℝ) : EReal) := by
  simp [Ideal.ofBits, Ideal.ieee, -EReal.coe_mul]; norm_num

/-- The reference's mean at (n, c) — the host sum from zero over the spatial axes, divided by the float 3136.0 — is the
    double sum times 1 / 3136. -/
theorem host_mean (x : FVec Ideal ⟨4, ![32, 512, 56, 56]⟩ .f32)
    (h : (⟨4, ![32, 512, 56, 56]⟩ : Shape).ReducesTo [2, 3] ⟨2, ![32, 512]⟩) (hpos : 0 < (⟨0, ![]⟩ : Shape).numel)
    (hb : (⟨0, ![]⟩ : Shape).BroadcastsInDim ⟨2, ![32, 512]⟩ (![] : Fin 0 → Fin 2)) (n : Fin 32) (c : Fin 512) :
    Host.divf (F := Ideal) (Host.reduceAdd (F := Ideal) x (constant (F := Ideal) ⟨0, ![]⟩ .f32 0x00000000#32) h hpos)
        (broadcastInDim ⟨2, ![32, 512]⟩ ![] hb (constant (F := Ideal) ⟨0, ![]⟩ .f32 0x45440000#32)) (ix2 n c)
      = spatialSum x n c * ((1 / 3136 : ℝ) : EReal) := by
  show Ideal.div (Ideal.hostReduceAdd h x (Ideal.ofBits .f32 0x00000000#32) (ix2 n c)) (Ideal.ofBits .f32 0x45440000#32) = _
  rw [hostSum_spatial, ofBits_zero, ofBits_3136, zero_add, Ideal.div_coe (by norm_num : (3136 : ℝ) ≠ 0)]

end Cert.PoolSum

end
-- ==== Proof.PoolValue.lean ====
/-
  What the pooling region leaves in its output array, on the extended reals. The grid has a point for every block of 8
  samples and 128 channels; at a point the body sums the input block (8 × 128 × 56 × 56) over its columns, then over its
  rows, and multiplies by the reciprocal of the number of spatial positions, which the certificate's table reads as
  1 / 3136. The output's 8 × 128 blocks tile its array and the input's block sits at the same samples and channels, over
  all rows and columns: so the array ends holding, at (n, c), the double sum of the input at (n, c, ·, ·) times 1 / 3136.
-/
import proofs.«119825_j20332375179387_1_alg».proof.Proof.Gen.KernelIdeal.Frame
import proofs.«119825_j20332375179387_1_alg».proof.Proof.PoolSum
import Idealize.ShloMosaic.Lib.Pipeline.Value
import Idealize.ShloMosaic.Lib.ValueIdx
import Idealize.ShloMosaic.PureOps.IdealRules

set_option maxRecDepth 16384

noncomputable section

namespace Cert.KernelIdeal.PoolValue

open Cert.KernelIdeal Cert.KernelIdeal.Gen Cert.PoolSum
open Idealize.ShloMosaic Idealize.ShloMosaic.TcCoe Idealize.ShloMosaic.ValueIdx
open Idealize.SL Idealize.SL.Sem
open Idealize.ShloMosaic.Pipeline (Dat Cfg Window)
open scoped BigOperators

/-- The pooled array: at (n, c) the sum of the input's 56 × 56 entries there, times 1 / 3136. -/
def pooled (x : S32x512x56x56.Idx → EReal) : S32x512.Idx → EReal :=
  fun i => spatialSum x (i 0) (i 1) * ((1 / 3136 : ℝ) : EReal)

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The kernel's reciprocal of the number of spatial positions is, by the certificate's table, the rational 1 / 3136. -/
theorem inv_n : Named.named (F := Ideal) κ "inv_3136" (φ := .f32) 0x39A72F05#32 = ((1 / 3136 : ℝ) : EReal) :=
  IdealRules.named_const.ideal_named_scalar _ _ _ _ rfl

/-- The body's result at an index of the block: the double sum of the input block's entries there, times 1 / 3136. -/
theorem pool_pay (v0 : FVec Ideal S8x128x56x56 .f32) (j : S8x128.Idx) :
    k0_pay1 (F := Ideal) v0 j = spatialSum v0 (j 0) (j 1) * ((1 / 3136 : ℝ) : EReal) := by
  obtain ⟨p, q, rfl⟩ : ∃ (p : Fin 8) (q : Fin 128), j = ix2 p q := ⟨j 0, j 1, eq_ix2 j⟩
  show multiReduction .add [2] S8x128 (multiReduction .add [3] S8x128x56 v0 0x00000000#32 reduces_S8x128x56x56_S8x128x56 (.inl rfl) rfl)
      0x00000000#32 reduces_S8x128x56_S8x128 (.inl rfl) rfl (ix2 p q) * Named.named (F := Ideal) κ "inv_3136" (φ := .f32) 0x39A72F05#32 = _
  rw [inv_n]
  exact congrArg (fun s => s * ((1 / 3136 : ℝ) : EReal)) (lane_sums v0 _ _ _ _ _ p q)

section Region
variable (V : (c : Dev nD) → (b : Ref sig .tc) → Buf (Elt Ideal) ((c : Thread nD τ).loc b))

/-- The two windows' block positions over the grid: the input's block at the output's samples and channels and at the
    first rows and columns; the output's two positions at most 3. -/
theorem idx_facts : ∀ t : Fin cfg0.N,
    win0_0.index t (0 : Fin 4) = win0_1.index t (0 : Fin 2) ∧ win0_0.index t (1 : Fin 4) = win0_1.index t (1 : Fin 2)
    ∧ win0_0.index t (2 : Fin 4) = 0 ∧ win0_0.index t (3 : Fin 4) = 0
    ∧ win0_1.index t (0 : Fin 2) ≤ 3 ∧ win0_1.index t (1 : Fin 2) ≤ 3 :=
  (by decide +kernel : ∀ t : Fin grid0.N, _)

/-- Every block of samples and channels is some point's. -/
theorem idx_onto : ∀ (q0 : Fin 4) (q1 : Fin 4), ∃ t : Fin cfg0.N, win0_1.index t = ![q0.val, q1.val] :=
  (by decide +kernel : ∀ (q0 : Fin 4) (q1 : Fin 4), ∃ t : Fin grid0.N, win0_1.index t = ![q0.val, q1.val])

/-- What a point writes back is its block of the pooled array. -/
theorem flushed_eq (c : Dev nD) (t : Fin cfg0.N) :
    (dat0 V c).flushed 1 t = ((cfg0.win 1).blk t).view.read (Elt Ideal) (pooled (V c main_arg0)) := by
  show (cfg0.win 1).cut (grid0.coords t) ((dat0 V c).after 1 t) = _
  rw [after0_1]
  unfold out0_1
  rw [View.canon_unit_zero hz2]
  simp only [View.ld_unit_zero (S := S8x128x56x56) hz4]
  obtain ⟨e0, e1, e2, e3, e4, e5⟩ := idx_facts t
  funext j
  refine (pool_pay _ j).trans ?_
  show _ = pooled (V c main_arg0) (((cfg0.win 1).blk t).view.emb j)
  unfold pooled
  refine congrArg (fun s => s * ((1 / 3136 : ℝ) : EReal)) ?_
  unfold spatialSum
  refine Finset.sum_congr rfl fun h _ => Finset.sum_congr rfl fun w _ => ?_
  show V c main_arg0 (((cfg0.win 0).blk t).view.emb (ix4 (j 0) (j 1) h w))
    = V c main_arg0 (ix4 ((((cfg0.win 1).blk t).view.emb j) 0) ((((cfg0.win 1).blk t).view.emb j) 1) h w)
  refine congrArg (V c main_arg0) ?_
  funext a; apply Fin.ext
  match a with
  | ⟨0, _⟩ => show win0_0.index t (0 : Fin 4) * 8 + 1 * (j 0).val = win0_1.index t (0 : Fin 2) * 8 + 1 * (j 0).val; omega
  | ⟨1, _⟩ => show win0_0.index t (1 : Fin 4) * 128 + 1 * (j 1).val = win0_1.index t (1 : Fin 2) * 128 + 1 * (j 1).val; omega
  | ⟨2, _⟩ => show win0_0.index t (2 : Fin 4) * 56 + 1 * h.val = h.val; omega
  | ⟨3, _⟩ => show win0_0.index t (3 : Fin 4) * 56 + 1 * w.val = w.val; omega

/-- An index of the array is in a point's block iff each coordinate is in the block's range on its axis. -/
theorem mem_blk (t : Fin cfg0.N) (i : S32x512.Idx) :
    i ∈ ((cfg0.win 1).blk t).view.set ↔ ∀ a : Fin 2, win0_1.index t a * S8x128.size a ≤ (i a).val
      ∧ (i a).val < win0_1.index t a * S8x128.size a + S8x128.size a := by
  show i ∈ ((View.whole main_v0).slice (win0_1.rect t)).set ↔ _
  rw [View.set_slice_whole, Rect.mem_set_unit]
  exact Iff.rfl

/-- Every index of the array is in some point's block: the point of its block of samples and its block of channels. -/
theorem cover (i : S32x512.Idx) :
    ∃ t : Fin cfg0.N, (cfg0.win 1).flush t = true ∧ i ∈ ((cfg0.win 1).blk t).view.set := by
  have hi0 : (i 0).val < 32 := (i 0).isLt
  have hi1 : (i 1).val < 512 := (i 1).isLt
  obtain ⟨t, ht⟩ := idx_onto ⟨(i 0).val / 8, by omega⟩ ⟨(i 1).val / 128, by omega⟩
  have q0 : win0_1.index t (0 : Fin 2) = (i 0).val / 8 := congrFun ht 0
  have q1 : win0_1.index t (1 : Fin 2) = (i 1).val / 128 := congrFun ht 1
  refine ⟨t, flush0_1 t, ?_⟩
  rw [mem_blk]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 128 ≤ (i 1).val ∧ (i 1).val < win0_1.index t (1 : Fin 2) * 128 + 128; omega

/-- The output array after the region: the pooled input, as the region found it. -/
theorem final (c : Dev nD) : (dat0 V c).arrAt 1 cfg0.N = pooled (V c main_arg0) :=
  (dat0 V c).arrAt_eq_of_cover 1 (pooled (V c main_arg0)) (fun t _ => flushed_eq V c t) (cover)

end Region

end Cert.KernelIdeal.PoolValue

end
-- ==== Proof.RefValue.lean ====
/-
  The reference's first and last stretches, read as arrays on the extended reals. The pooling stretch leaves, at (n, c),
  the host sum from zero of the input over the two spatial axes divided by 3136.0: the double sum times 1 / 3136. The last
  stretch gives the gate two unit axes, broadcasts it over rows and columns and multiplies it into the input: at
  (n, c, h, w) that is the input there times the gate at (n, c).
-/
import proofs.«119825_j20332375179387_1_alg».proof.Proof.RefRun
import proofs.«119825_j20332375179387_1_alg».proof.Proof.PoolSum
import proofs.«119825_j20332375179387_1_alg».proof.Proof.GateValue
import Idealize.ShloMosaic.Lib.Pipeline.Value
import Idealize.ShloMosaic.Lib.ValueIdx

set_option maxRecDepth 16384

noncomputable section

namespace Cert.ReferenceIdeal.RefValue

open Cert.ReferenceIdeal Cert.ReferenceIdeal.Gen Cert.ReferenceIdeal.RefRun Cert.PoolSum
open Idealize.ShloMosaic Idealize.ShloMosaic.TcCoe Idealize.ShloMosaic.StableHlo Idealize.ShloMosaic.ValueIdx

/-- The reference's mean over the spatial axes, as an array: the double sum times 1 / 3136 at every sample and channel. -/
theorem pool_ref (V' : Valuation τ sig (Elt Ideal)) :
    after opsPool V' (Proc.devRef .tc main_v2)
      = fun i : S32x512.Idx => spatialSum (V' (Proc.devRef .tc main_arg0) : S32x512x56x56.Idx → EReal) (i 0) (i 1) * ((1 / 3136 : ℝ) : EReal) := by
  after_results_simp
  funext i
  obtain ⟨n, c, rfl⟩ : ∃ (n : Fin 32) (c : Fin 512), i = ix2 n c := ⟨i 0, i 1, eq_ix2 i⟩
  exact host_mean _ _ _ _ n c

/-- A gate given two unit axes and broadcast over rows and columns, multiplied into an array: at every index the array's
    entry times the gate at the index's sample and channel. -/
theorem tail_eq {F : FTy → Type} [FloatOps F] (x : S32x512x56x56.Idx → F .f32) (g : S32x512.Idx → F .f32) :
    mulf (φ := .f32) x (broadcastInDim S32x512x56x56 ![0, 1, 2, 3] bcast_S32x512x1x1_S32x512x56x56_0_1_2_3
        (broadcastInDim S32x512x1x1 ![0, 1] bcast_S32x512_S32x512x1x1_0_1 g))
      = Cert.KernelIdeal.GateValue.gated x g := by
  funext i
  obtain ⟨n, c, h, w, rfl⟩ : ∃ (n : Fin 32) (c : Fin 512) (h : Fin 56) (w : Fin 56), i = ix4 n c h w :=
    ⟨i 0, i 1, i 2, i 3, eq_ix4 i⟩
  show FloatOps.mulf (x (ix4 n c h w)) (broadcastInDim S32x512x56x56 ![0, 1, 2, 3] bcast_S32x512x1x1_S32x512x56x56_0_1_2_3
      (broadcastInDim S32x512x1x1 ![0, 1] bcast_S32x512_S32x512x1x1_0_1 g) (ix4 n c h w))
    = FloatOps.mulf (x (ix4 n c h w)) (g (ix2 n c))
  congr 1
  rw [broadcastInDim_apply _ _ _ _ (ix4 n c (0 : Fin 1) (0 : Fin 1)) (fun a => by
    match a with | ⟨0, _⟩ => rfl | ⟨1, _⟩ => rfl | ⟨2, _⟩ => rfl | ⟨3, _⟩ => rfl)]
  exact broadcastInDim_apply _ _ _ _ (ix2 n c) (fun a => by
    match a with | ⟨0, _⟩ => rfl | ⟨1, _⟩ => rfl)

/-- The reference's last stretch: the input, as the stretch finds it, gated by the gate array as the stretch finds it. -/
theorem tail_ref {F : FTy → Type} [FloatOps F] (X : Valuation τ sig (Elt F)) :
    after opsTail X (Proc.devRef .tc main_v68)
      = Cert.KernelIdeal.GateValue.gated (X (Proc.devRef .tc main_arg0)) (X (Proc.devRef .tc main_v65)) := by
  after_results_simp
  exact tail_eq _ _

end Cert.ReferenceIdeal.RefValue

end
-- ==== Proof.MlpAgree.lean ====
/-
  The gate network is the same line of host operations in both programs: the projection onto 64 channels with its bias,
  the normalisation over those channels, the ELU, the projection back onto 512 channels with its bias, the normalisation
  over those, and the logistic function. Read stretch by stretch: whenever the two programs' buffers agree on what a
  stretch reads (the pooled array or the previous stretch's result, and the weight, bias, scale and shift arguments), they
  agree on what it leaves — each side's operations compose to one term of those inputs, and the two terms are the same
  operations with the same constants.
-/
import proofs.«119825_j20332375179387_1_alg».proof.Proof.Gen.KernelIdeal.Launch
import proofs.«119825_j20332375179387_1_alg».proof.Proof.RefRun

set_option maxRecDepth 16384

noncomputable section

namespace Cert.MlpAgree

open Idealize.ShloMosaic Idealize.ShloMosaic.TcCoe Idealize.ShloMosaic.StableHlo

variable {F : FTy → Type} [FloatOps F] [Named F]
variable (V : Valuation Cert.KernelIdeal.τ Cert.KernelIdeal.sig (Elt F)) (V' : Valuation Cert.ReferenceIdeal.τ Cert.ReferenceIdeal.sig (Elt F))

set_option maxHeartbeats 4000000 in
/-- The first projection and its normalisation: from agreeing pooled arrays, weights, biases, scales and shifts. -/
theorem stage1 (h0 : V (Proc.devRef .tc Cert.KernelIdeal.main_v0) = V' (Proc.devRef .tc Cert.ReferenceIdeal.main_v2))
    (h1 : V (Proc.devRef .tc Cert.KernelIdeal.main_arg1) = V' (Proc.devRef .tc Cert.ReferenceIdeal.main_arg1)) (h2 : V (Proc.devRef .tc Cert.KernelIdeal.main_arg2) = V' (Proc.devRef .tc Cert.ReferenceIdeal.main_arg2))
    (h3 : V (Proc.devRef .tc Cert.KernelIdeal.main_arg3) = V' (Proc.devRef .tc Cert.ReferenceIdeal.main_arg3)) (h4 : V (Proc.devRef .tc Cert.KernelIdeal.main_arg4) = V' (Proc.devRef .tc Cert.ReferenceIdeal.main_arg4)) :
    after Cert.KernelIdeal.Gen.hostOps1 V (Proc.devRef .tc Cert.KernelIdeal.main_v28) = after Cert.ReferenceIdeal.RefRun.opsMlp1 V' (Proc.devRef .tc Cert.ReferenceIdeal.main_v30) := by
  after_results_simp
  rw [h0, h1, h2, h3, h4]
  rfl

set_option maxHeartbeats 4000000 in
/-- The ELU: from agreeing arguments. -/
theorem stage2 (h : V (Proc.devRef .tc Cert.KernelIdeal.main_v28) = V' (Proc.devRef .tc Cert.ReferenceIdeal.main_v30)) :
    after Cert.KernelIdeal.Gen.hostOps1_1 V (Proc.devRef .tc Cert.KernelIdeal.main_v29) = after Cert.ReferenceIdeal.RefRun.opsElu V' (Proc.devRef .tc Cert.ReferenceIdeal.main_v31) := by
  after_results_simp
  rw [h]

set_option maxHeartbeats 4000000 in
/-- The second projection, its normalisation and the logistic function: from agreeing ELU results, weights, biases,
    scales and shifts. -/
theorem stage3 (h : V (Proc.devRef .tc Cert.KernelIdeal.main_v29) = V' (Proc.devRef .tc Cert.ReferenceIdeal.main_v31))
    (h5 : V (Proc.devRef .tc Cert.KernelIdeal.main_arg5) = V' (Proc.devRef .tc Cert.ReferenceIdeal.main_arg5)) (h6 : V (Proc.devRef .tc Cert.KernelIdeal.main_arg6) = V' (Proc.devRef .tc Cert.ReferenceIdeal.main_arg6))
    (h7 : V (Proc.devRef .tc Cert.KernelIdeal.main_arg7) = V' (Proc.devRef .tc Cert.ReferenceIdeal.main_arg7)) (h8 : V (Proc.devRef .tc Cert.KernelIdeal.main_arg8) = V' (Proc.devRef .tc Cert.ReferenceIdeal.main_arg8)) :
    after Cert.KernelIdeal.Gen.hostOps1_2 V (Proc.devRef .tc Cert.KernelIdeal.main_v63)
      = after Cert.ReferenceIdeal.RefRun.opsMlp2b (after Cert.ReferenceIdeal.RefRun.opsMlp2a V') (Proc.devRef .tc Cert.ReferenceIdeal.main_v65) := by
  after_results_simp
  rw [h, h5, h6, h7, h8]
  rfl

end Cert.MlpAgree

end
-- ==== Proof.Keep.lean ====
/-
  No host operation of either program writes an argument array: each writes its own result buffer. So the contents of an
  argument's buffer after a stretch of operations are its contents before it.
-/
import proofs.«119825_j20332375179387_1_alg».proof.Proof.Gen.KernelIdeal.Launch
import proofs.«119825_j20332375179387_1_alg».proof.Proof.RefRun

set_option maxRecDepth 16384

noncomputable section

namespace Cert.Keep

open Idealize.ShloMosaic Idealize.ShloMosaic.TcCoe Idealize.ShloMosaic.StableHlo

variable {F : FTy → Type} [FloatOps F] [Named F]
variable (V : Valuation Cert.KernelIdeal.τ Cert.KernelIdeal.sig (Elt F)) (V' : Valuation Cert.ReferenceIdeal.τ Cert.ReferenceIdeal.sig (Elt F))

set_option maxHeartbeats 4000000 in
/-- The kernel program's first two host stretches leave the second projection's weight, bias, scale and shift alone. -/
theorem kernel12 :
    after Cert.KernelIdeal.Gen.hostOps1_1 (after Cert.KernelIdeal.Gen.hostOps1 V) (Proc.devRef .tc Cert.KernelIdeal.main_arg5) = V (Proc.devRef .tc Cert.KernelIdeal.main_arg5)
      ∧ after Cert.KernelIdeal.Gen.hostOps1_1 (after Cert.KernelIdeal.Gen.hostOps1 V) (Proc.devRef .tc Cert.KernelIdeal.main_arg6) = V (Proc.devRef .tc Cert.KernelIdeal.main_arg6)
      ∧ after Cert.KernelIdeal.Gen.hostOps1_1 (after Cert.KernelIdeal.Gen.hostOps1 V) (Proc.devRef .tc Cert.KernelIdeal.main_arg7) = V (Proc.devRef .tc Cert.KernelIdeal.main_arg7)
      ∧ after Cert.KernelIdeal.Gen.hostOps1_1 (after Cert.KernelIdeal.Gen.hostOps1 V) (Proc.devRef .tc Cert.KernelIdeal.main_arg8) = V (Proc.devRef .tc Cert.KernelIdeal.main_arg8) := by
  refine ⟨?_, ?_, ?_, ?_⟩ <;> after_results_simp

set_option maxHeartbeats 4000000 in
/-- The reference's pooling stretch leaves the weights, biases, scales and shifts alone. -/
theorem refPool :
    after Cert.ReferenceIdeal.RefRun.opsPool V' (Proc.devRef .tc Cert.ReferenceIdeal.main_arg1) = V' (Proc.devRef .tc Cert.ReferenceIdeal.main_arg1)
      ∧ after Cert.ReferenceIdeal.RefRun.opsPool V' (Proc.devRef .tc Cert.ReferenceIdeal.main_arg2) = V' (Proc.devRef .tc Cert.ReferenceIdeal.main_arg2)
      ∧ after Cert.ReferenceIdeal.RefRun.opsPool V' (Proc.devRef .tc Cert.ReferenceIdeal.main_arg3) = V' (Proc.devRef .tc Cert.ReferenceIdeal.main_arg3)
      ∧ after Cert.ReferenceIdeal.RefRun.opsPool V' (Proc.devRef .tc Cert.ReferenceIdeal.main_arg4) = V' (Proc.devRef .tc Cert.ReferenceIdeal.main_arg4)
      ∧ after Cert.ReferenceIdeal.RefRun.opsPool V' (Proc.devRef .tc Cert.ReferenceIdeal.main_arg5) = V' (Proc.devRef .tc Cert.ReferenceIdeal.main_arg5)
      ∧ after Cert.ReferenceIdeal.RefRun.opsPool V' (Proc.devRef .tc Cert.ReferenceIdeal.main_arg6) = V' (Proc.devRef .tc Cert.ReferenceIdeal.main_arg6)
      ∧ after Cert.ReferenceIdeal.RefRun.opsPool V' (Proc.devRef .tc Cert.ReferenceIdeal.main_arg7) = V' (Proc.devRef .tc Cert.ReferenceIdeal.main_arg7)
      ∧ after Cert.ReferenceIdeal.RefRun.opsPool V' (Proc.devRef .tc Cert.ReferenceIdeal.main_arg8) = V' (Proc.devRef .tc Cert.ReferenceIdeal.main_arg8) := by
  refine ⟨?_, ?_, ?_, ?_, ?_, ?_, ?_, ?_⟩ <;> after_results_simp

set_option maxHeartbeats 4000000 in
/-- The reference's first projection stretch and its ELU leave the second projection's weight, bias, scale and shift alone. -/
theorem ref12 :
    after Cert.ReferenceIdeal.RefRun.opsElu (after Cert.ReferenceIdeal.RefRun.opsMlp1 V') (Proc.devRef .tc Cert.ReferenceIdeal.main_arg5) = V' (Proc.devRef .tc Cert.ReferenceIdeal.main_arg5)
      ∧ after Cert.ReferenceIdeal.RefRun.opsElu (after Cert.ReferenceIdeal.RefRun.opsMlp1 V') (Proc.devRef .tc Cert.ReferenceIdeal.main_arg6) = V' (Proc.devRef .tc Cert.ReferenceIdeal.main_arg6)
      ∧ after Cert.ReferenceIdeal.RefRun.opsElu (after Cert.ReferenceIdeal.RefRun.opsMlp1 V') (Proc.devRef .tc Cert.ReferenceIdeal.main_arg7) = V' (Proc.devRef .tc Cert.ReferenceIdeal.main_arg7)
      ∧ after Cert.ReferenceIdeal.RefRun.opsElu (after Cert.ReferenceIdeal.RefRun.opsMlp1 V') (Proc.devRef .tc Cert.ReferenceIdeal.main_arg8) = V' (Proc.devRef .tc Cert.ReferenceIdeal.main_arg8) := by
  refine ⟨?_, ?_, ?_, ?_⟩ <;> after_results_simp

set_option maxHeartbeats 8000000 in
/-- The reference's whole gate network, from the pooling on, leaves the input array alone. -/
theorem refInput :
    after Cert.ReferenceIdeal.RefRun.opsMlp2b (after Cert.ReferenceIdeal.RefRun.opsMlp2a (after Cert.ReferenceIdeal.RefRun.opsElu (after Cert.ReferenceIdeal.RefRun.opsMlp1
      (after Cert.ReferenceIdeal.RefRun.opsPool V')))) (Proc.devRef .tc Cert.ReferenceIdeal.main_arg0) = V' (Proc.devRef .tc Cert.ReferenceIdeal.main_arg0) := by
  after_results_simp

end Cert.Keep

end
-- ==== Proof.Agree.lean ====
/-
  The two programs' results are one array, on the extended reals, from memories that agree on the arguments.
  The kernel program: its result array is what the gating region leaves, the input times the gate at each index's
  sample and channel; the gate is what the three host stretches leave from the contents after the pooling region; there the
  pooled array holds the double sums times 1 / 3136 and every weight, bias, scale and shift holds its launch contents.
  The reference: its line of operations read stretch by stretch — the mean (the same double sums times 1 / 3136), the gate
  network (the same operations from the same inputs, hence the same gate), and the multiplication of the input by the gate
  broadcast over rows and columns.
-/
import proofs.«119825_j20332375179387_1_alg».proof.Proof.KernelRun
import proofs.«119825_j20332375179387_1_alg».proof.Proof.GateValue
import proofs.«119825_j20332375179387_1_alg».proof.Proof.PoolValue
import proofs.«119825_j20332375179387_1_alg».proof.Proof.RefValue
import proofs.«119825_j20332375179387_1_alg».proof.Proof.MlpAgree
import proofs.«119825_j20332375179387_1_alg».proof.Proof.Keep
import proofs.«119825_j20332375179387_1_alg».proof.Proof.RefArgs

set_option maxRecDepth 16384

noncomputable section

namespace Cert.Agree

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-- The kernel program's result array: the input gated by the gate array the host stretches leave. -/
theorem kernel_value (c : Dev nD) :
    W5 m ρ c (Proc.devRef .tc main_v64)
      = GateValue.gated (F := Ideal) (m ((c : Thread nD τ).loc main_arg0)) (W4 m ρ c (Proc.devRef .tc main_v63)) := by
  have h0 : W4 m ρ c (Proc.devRef .tc main_arg0) = m ((c : Thread nD τ).loc main_arg0) :=
    ((W5_arr m ρ c 0).trans (((dat1 (V4 m ρ) c).arrAt_in 0 rfl _).trans (A_eq1 (V4 m ρ) c 0))).symm.trans (W5_main_arg0 m ρ c)
  rw [← h0]
  exact (W5_arr m ρ c 2).trans (GateValue.final (V4 m ρ) c)

/-- After the pooling region the pooled array holds the double sums of the input times 1 / 3136. -/
theorem kernel_pooled (c : Dev nD) :
    W1 m ρ c (Proc.devRef .tc main_v0) = PoolValue.pooled (m ((c : Thread nD τ).loc main_arg0)) :=
  (W1_arr m ρ c 1).trans (PoolValue.final (V0 m ρ) c)

/-- The reference's result array is the kernel program's. -/
theorem result_agree (m' : (ℓ : Loc Cert.ReferenceIdeal.nD Cert.ReferenceIdeal.τ Cert.ReferenceIdeal.sig) → Buf (Elt Ideal) ℓ) (c : Dev nD)
    (g0 : m' ((c.tc : Thread Cert.ReferenceIdeal.nD Cert.ReferenceIdeal.τ).loc Cert.ReferenceIdeal.main_arg0) = m ((c.tc : Thread nD τ).loc main_arg0))
    (g1 : m' ((c.tc : Thread Cert.ReferenceIdeal.nD Cert.ReferenceIdeal.τ).loc Cert.ReferenceIdeal.main_arg1) = m ((c.tc : Thread nD τ).loc main_arg1))
    (g2 : m' ((c.tc : Thread Cert.ReferenceIdeal.nD Cert.ReferenceIdeal.τ).loc Cert.ReferenceIdeal.main_arg2) = m ((c.tc : Thread nD τ).loc main_arg2))
    (g3 : m' ((c.tc : Thread Cert.ReferenceIdeal.nD Cert.ReferenceIdeal.τ).loc Cert.ReferenceIdeal.main_arg3) = m ((c.tc : Thread nD τ).loc main_arg3))
    (g4 : m' ((c.tc : Thread Cert.ReferenceIdeal.nD Cert.ReferenceIdeal.τ).loc Cert.ReferenceIdeal.main_arg4) = m ((c.tc : Thread nD τ).loc main_arg4))
    (g5 : m' ((c.tc : Thread Cert.ReferenceIdeal.nD Cert.ReferenceIdeal.τ).loc Cert.ReferenceIdeal.main_arg5) = m ((c.tc : Thread nD τ).loc main_arg5))
    (g6 : m' ((c.tc : Thread Cert.ReferenceIdeal.nD Cert.ReferenceIdeal.τ).loc Cert.ReferenceIdeal.main_arg6) = m ((c.tc : Thread nD τ).loc main_arg6))
    (g7 : m' ((c.tc : Thread Cert.ReferenceIdeal.nD Cert.ReferenceIdeal.τ).loc Cert.ReferenceIdeal.main_arg7) = m ((c.tc : Thread nD τ).loc main_arg7))
    (g8 : m' ((c.tc : Thread Cert.ReferenceIdeal.nD Cert.ReferenceIdeal.τ).loc Cert.ReferenceIdeal.main_arg8) = m ((c.tc : Thread nD τ).loc main_arg8)) :
    after Cert.ReferenceIdeal.RefRun.ops (launchContents m' c) (Proc.devRef .tc Cert.ReferenceIdeal.main_v68)
      = W5 m ρ c (Proc.devRef .tc main_v64) := by
  obtain ⟨k5, k6, k7, k8⟩ := Cert.Keep.kernel12 (F := Ideal) (W1 m ρ c)
  obtain ⟨r1, r2, r3, r4, r5, r6, r7, r8⟩ := Cert.Keep.refPool (F := Ideal) (launchContents m' c)
  obtain ⟨q5, q6, q7, q8⟩ := Cert.Keep.ref12 (F := Ideal) (after Cert.ReferenceIdeal.RefRun.opsPool (launchContents m' c))
  have e0 : launchContents m' c (Proc.devRef .tc Cert.ReferenceIdeal.main_arg0) = m ((c : Thread nD τ).loc main_arg0) := g0
  rw [Cert.ReferenceIdeal.RefArgs.after_ops, Cert.ReferenceIdeal.RefValue.tail_ref, kernel_value, Cert.Keep.refInput, e0]
  refine congrArg (GateValue.gated (F := Ideal) (m ((c : Thread nD τ).loc main_arg0))) ?_
  symm
  show after hostOps1_2 (after hostOps1_1 (after hostOps1 (W1 m ρ c))) (Proc.devRef .tc main_v63) = _
  refine Cert.MlpAgree.stage3 _ _ (Cert.MlpAgree.stage2 _ _ (Cert.MlpAgree.stage1 _ _ ?_ ?_ ?_ ?_ ?_)) ?_ ?_ ?_ ?_
  · rw [kernel_pooled, Cert.ReferenceIdeal.RefValue.pool_ref, e0]
    rfl
  · exact ((W1_of_ne m ρ c main_arg1 (by decide)).trans (g1.symm : m ((c : Thread nD τ).loc main_arg1) = _)).trans r1.symm
  · exact ((W1_of_ne m ρ c main_arg2 (by decide)).trans (g2.symm : m ((c : Thread nD τ).loc main_arg2) = _)).trans r2.symm
  · exact ((W1_of_ne m ρ c main_arg3 (by decide)).trans (g3.symm : m ((c : Thread nD τ).loc main_arg3) = _)).trans r3.symm
  · exact ((W1_of_ne m ρ c main_arg4 (by decide)).trans (g4.symm : m ((c : Thread nD τ).loc main_arg4) = _)).trans r4.symm
  · exact (k5.trans (((W1_of_ne m ρ c main_arg5 (by decide)).trans (g5.symm : m ((c : Thread nD τ).loc main_arg5) = _)).trans r5.symm)).trans q5.symm
  · exact (k6.trans (((W1_of_ne m ρ c main_arg6 (by decide)).trans (g6.symm : m ((c : Thread nD τ).loc main_arg6) = _)).trans r6.symm)).trans q6.symm
  · exact (k7.trans (((W1_of_ne m ρ c main_arg7 (by decide)).trans (g7.symm : m ((c : Thread nD τ).loc main_arg7) = _)).trans r7.symm)).trans q7.symm
  · exact (k8.trans (((W1_of_ne m ρ c main_arg8 (by decide)).trans (g8.symm : m ((c : Thread nD τ).loc main_arg8) = _)).trans r8.symm)).trans q8.symm

end Cert.Agree

end
-- ==== Proof.lean ====
/-
  The channel-attention layer: y[n, c, h, w] = x[n, c, h, w] · σ(GN₂(W₂ · ELU(GN₁(W₁ · p[n, ·] + b₁)) + b₂))[n, c], where
  p[n, c] is the mean of x[n, c, ·, ·] over its 56 · 56 spatial positions, GN normalises a sample's channels (mean, variance
  plus 1e-5, inverse square root, scale and shift) and σ is the logistic function.

  The kernel computes p in a pooling region (sums over columns, then rows, times the reciprocal of 3136, which the
  certificate's table reads as the rational 1 / 3136), the gate on the host, and y in a gating region; the reference computes
  p as a host sum over both spatial axes divided by 3136.0, the same gate, and y by broadcasting the gate. On the extended
  reals the two means agree at every sample and channel — the sums are the same double sum, in any order, and a quotient
  by 3136 is a product with 1 / 3136 on every extended real — so the gates agree, and so do the products. Nothing here uses
  that the inputs are finite.

  The three frames: the two kernel programs' are the launch of their segments; the reference's is its straight line of host
  operations, none of which writes an argument. The one rewrite of the idealization is the named reciprocal.
-/
import proofs.«119825_j20332375179387_1_alg».proof.Defs
import proofs.«119825_j20332375179387_1_alg».proof.Proof.Gen.Kernel
import proofs.«119825_j20332375179387_1_alg».proof.Proof.Gen.Kernel.Frame
import proofs.«119825_j20332375179387_1_alg».proof.Proof.Gen.KernelIdeal
import proofs.«119825_j20332375179387_1_alg».proof.Proof.Gen.KernelIdeal.Frame
import proofs.«119825_j20332375179387_1_alg».proof.Proof.Gen.ReferenceIdeal
import proofs.«119825_j20332375179387_1_alg».proof.Proof.Gen.Pre_finite_inputs
import proofs.«119825_j20332375179387_1_alg».proof.Proof.KernelRun
import proofs.«119825_j20332375179387_1_alg».proof.Proof.RefRun
import proofs.«119825_j20332375179387_1_alg».proof.Proof.RefArgs
import proofs.«119825_j20332375179387_1_alg».proof.Proof.Agree
import Idealize.ShloMosaic.PureOps.IdealRules
import Idealize.ShloMosaic.Adequacy
import Idealize.ShloMosaic.Init

noncomputable section

namespace Cert.Proof

open Idealize.ShloMosaic Idealize.ShloMosaic.TcCoe Idealize.ShloMosaic.StableHlo Idealize.SL.Sem

theorem frame_p : Cert.frame_Kernel := fun m ρ _ => Cert.Kernel.Gen.frame m ρ

theorem frame_pi : Cert.frame_KernelIdeal := fun m ρ _ => Cert.KernelIdeal.Gen.frame m ρ

/-- The reference runs, and each argument ends as launched: every buffer ends at what the line of operations leaves, and
    the line leaves the arguments alone. -/
theorem frame_ri : Cert.frame_ReferenceIdeal := fun m ρ _ =>
  (θ_run Cert.ReferenceIdeal.defs _ _).mono (fun r h c => by
    obtain ⟨a0, a1, a2, a3, a4, a5, a6, a7, a8⟩ := Cert.ReferenceIdeal.RefArgs.kept (F := Ideal) (launchContents m c)
    exact ⟨(h c Cert.ReferenceIdeal.main_arg0).trans a0,
      (h c Cert.ReferenceIdeal.main_arg1).trans a1,
      (h c Cert.ReferenceIdeal.main_arg2).trans a2,
      (h c Cert.ReferenceIdeal.main_arg3).trans a3,
      (h c Cert.ReferenceIdeal.main_arg4).trans a4,
      (h c Cert.ReferenceIdeal.main_arg5).trans a5,
      (h c Cert.ReferenceIdeal.main_arg6).trans a6,
      (h c Cert.ReferenceIdeal.main_arg7).trans a7,
      (h c Cert.ReferenceIdeal.main_arg8).trans a8⟩)
    (Cert.ReferenceIdeal.RefRun.run (F := Ideal) m ρ)

/-- The idealization's one rewrite: the table gives the reciprocal's name the value 1 / 3136, and the printed constant is
    that value on the extended reals. -/
theorem preserves : Cert.preserves_Kernel_KernelIdeal :=
  IdealRules.named_const.statement Cert.KernelIdeal.κ "inv_3136" .f32 0x39A72F05#32 ((1 / 3136 : ℝ) : EReal) rfl

/-- From memories agreeing on the arguments both idealized programs run, the arguments end as launched, and the two result
    arrays are equal at every index. -/
theorem algebraic : Cert.algebraic_KernelIdeal_ReferenceIdeal := by
  intro m ρ m' ρ' _ hagree
  refine ⟨fun c => Cert.KernelIdeal.Gen.W5 m ρ c (Proc.devRef .tc Cert.KernelIdeal.main_v64),
    Cert.KernelIdeal.KRun.run (F := Ideal) m ρ, ?_⟩
  refine (θ_run Cert.ReferenceIdeal.defs _ _).mono (fun r h c => ?_) (Cert.ReferenceIdeal.RefRun.run (F := Ideal) m' ρ')
  obtain ⟨a0, a1, a2, a3, a4, a5, a6, a7, a8⟩ := Cert.ReferenceIdeal.RefArgs.kept (F := Ideal) (launchContents m' c)
  obtain ⟨g0, g1, g2, g3, g4, g5, g6, g7, g8⟩ := hagree c
  exact ⟨(h c Cert.ReferenceIdeal.main_v68).trans (Cert.Agree.result_agree m ρ m' c g0 g1 g2 g3 g4 g5 g6 g7 g8),
    (h c Cert.ReferenceIdeal.main_arg0).trans a0,
    (h c Cert.ReferenceIdeal.main_arg1).trans a1,
    (h c Cert.ReferenceIdeal.main_arg2).trans a2,
    (h c Cert.ReferenceIdeal.main_arg3).trans a3,
    (h c Cert.ReferenceIdeal.main_arg4).trans a4,
    (h c Cert.ReferenceIdeal.main_arg5).trans a5,
    (h c Cert.ReferenceIdeal.main_arg6).trans a6,
    (h c Cert.ReferenceIdeal.main_arg7).trans a7,
    (h c Cert.ReferenceIdeal.main_arg8).trans a8⟩

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
